-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S2x4000000 : Shape := ⟨2, ![2, 4000000]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel

variable [Facts]

def fn {F : FTy → Type} [FloatOps F] (main_arg0 : FVec F S150000x64 .f32) (main_arg1 : IVec S2x4000000 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  main_v3
-- ==== Kernel.lean ====
abbrev S150000x64 : Shape := ⟨2, ![150000, 64]⟩
abbrev S2x4000000 : Shape := ⟨2, ![2, 4000000]⟩
abbrev S1x4000000 : Shape := ⟨2, ![1, 4000000]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S150000x1 : Shape := ⟨2, ![150000, 1]⟩
abbrev S3000x64 : Shape := ⟨2, ![3000, 64]⟩
abbrev S3000x1 : Shape := ⟨2, ![3000, 1]⟩
abbrev S4000000x64 : Shape := ⟨2, ![4000000, 64]⟩

abbrev nBuf : Space → Nat
  | .hbm => 54
  | .vmem => 24
  | .smem => 0
  | _ => 0

abbrev bufTy : (tb : Table) → Fin (tcTables nBuf tb) → BufTy
  | .hbm, ⟨0, _⟩ => ⟨S150000x64, .f32⟩
  | .hbm, ⟨1, _⟩ => ⟨S2x4000000, .i32⟩
  | .hbm, ⟨2, _⟩ => ⟨S1x4000000, .i32⟩
  | .hbm, ⟨3, _⟩ => ⟨S4000000, .i32⟩
  | .hbm, ⟨4, _⟩ => ⟨S1x4000000, .i32⟩
  | .hbm, ⟨5, _⟩ => ⟨S4000000, .i32⟩
  | .hbm, ⟨6, _⟩ => ⟨S_, .f32⟩
  | .hbm, ⟨7, _⟩ => ⟨S4000000, .f32⟩
  | .hbm, ⟨8, _⟩ => ⟨S_, .f32⟩
  | .hbm, ⟨9, _⟩ => ⟨S150000, .f32⟩
  | .hbm, ⟨10, _⟩ => ⟨S4000000x1, .i32⟩
  | .hbm, ⟨11, _⟩ => ⟨S150000, .f32⟩
  | .hbm, ⟨12, _⟩ => ⟨S_, .f32⟩
  | .hbm, ⟨13, _⟩ => ⟨S150000, .f32⟩
  | .hbm, ⟨14, _⟩ => ⟨S150000, .i1⟩
  | .hbm, ⟨15, _⟩ => ⟨S_, .f32⟩
  | .hbm, ⟨16, _⟩ => ⟨S150000, .f32⟩
  | .hbm, ⟨17, _⟩ => ⟨S150000, .f32⟩
  | .hbm, ⟨18, _⟩ => ⟨S150000, .f32⟩
  | .hbm, ⟨19, _⟩ => ⟨S_, .f32⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S150000x1, .f32⟩
  | .hbm, ⟨24, _⟩ => ⟨S150000x64, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x64, .f32⟩
  | .hbm, ⟨34, _⟩ => ⟨S_, .f32⟩
  | .hbm, ⟨35, _⟩ => ⟨S150000x64, .f32⟩
  | .hbm, ⟨36, _⟩ => ⟨S4000000x1, .i32⟩
  | .hbm, ⟨37, _⟩ => ⟨S150000x64, .f32⟩
  | .hbm, ⟨38, _⟩ => ⟨S150000x64, .f32⟩
  | .hbm, ⟨39, _⟩ => ⟨S150000x64, .f32⟩
  | .hbm, ⟨40, _⟩ => ⟨S_, .i32⟩
  | .hbm, ⟨41, _⟩ => ⟨S4000000, .i32⟩
  | .hbm, ⟨42, _⟩ => ⟨S4000000, .i1⟩
  | .hbm, ⟨43, _⟩ => ⟨S_, .i32⟩
  | .hbm, ⟨44, _⟩ => ⟨S4000000, .i32⟩
  | .hbm, ⟨45, _⟩ => ⟨S4000000, .i32⟩
  | .hbm, ⟨46, _⟩ => ⟨S4000000, .i32⟩
  | .hbm, ⟨47, _⟩ => ⟨S4000000x1, .i32⟩
  | .hbm, ⟨48, _⟩ => ⟨S4000000x64, .f32⟩
  | .hbm, ⟨49, _⟩ => ⟨S_, .f32⟩
  | .hbm, ⟨50, _⟩ => ⟨S150000x64, .f32⟩
  | .hbm, ⟨51, _⟩ => ⟨S4000000x1, .i32⟩
  | .hbm, ⟨52, _⟩ => ⟨S150000x64, .f32⟩
  | .hbm, ⟨53, _⟩ => ⟨S150000x64, .f32⟩
  | .local _ .vmem, ⟨0, _⟩ => ⟨S3000x64, .f32⟩
  | .local _ .vmem, ⟨1, _⟩ => ⟨S3000x64, .f32⟩
  | .local _ .vmem, ⟨2, _⟩ => ⟨S3000x1, .f32⟩
  | .local _ .vmem, ⟨3, _⟩ => ⟨S3000x1, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x1, .f32⟩
  | .local _ .vmem, ⟨9, _⟩ => ⟨S3000x1, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S3000x64, .f32⟩
  | .local _ .vmem, ⟨15, _⟩ => ⟨S3000x64, .f32⟩
  | .local _ .vmem, ⟨16, _⟩ => ⟨S3000x1, .f32⟩
  | .local _ .vmem, ⟨17, _⟩ => ⟨S3000x1, .f32⟩
  | .local _ .vmem, ⟨18, _⟩ => ⟨S3000x64, .f32⟩
  | .local _ .vmem, ⟨19, _⟩ => ⟨S3000x64, .f32⟩
  | .local _ .vmem, ⟨20, _⟩ => ⟨S3000x64, .f32⟩
  | .local _ .vmem, ⟨21, _⟩ => ⟨S3000x64, .f32⟩
  | .local _ .vmem, ⟨22, _⟩ => ⟨S3000x64, .f32⟩
  | .local _ .vmem, ⟨23, _⟩ => ⟨S3000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  shapeCasts_S150000_S150000x1 : S150000.ShapeCasts S150000x1
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x64 : S3000x1.Broadcasts S3000x64
  inb_S3000x64_S3000x64_0_0 : ∀ a, (![0, 0] : Fin 2 → Nat) a + S3000x64.size a ≤ S3000x64.size a
  h_S3000x64 : 0 < S3000x64.numel
  bcast_S_S150000x64 : S_.BroadcastsInDim S150000x64 (![] : Fin 0 → Fin S150000x64.rank)
  shapeCasts_S3000x64_S3000x64 : S3000x64.ShapeCasts S3000x64
  scatter_S150000_S4000000x1_S4000000_n_0_0_1_wf : ScatterDims.WF S150000 S4000000x1 S4000000 [] [0] [0] 1
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x1.size a ≤ S150000x1.size a
  hwx0_1 : ∀ i : grid0.Coords, EltTy.bits .f32 = 32 ∨ (Rect.block (s := S150000x1) S3000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x64.size a ≤ S150000x64.size a
  hwx1_0 : ∀ i : grid1.Coords, EltTy.bits .f32 = 32 ∨ (Rect.block (s := S150000x64) S3000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x1.size a ≤ S150000x1.size a
  hwx1_1 : ∀ i : grid1.Coords, EltTy.bits .f32 = 32 ∨ (Rect.block (s := S150000x1) S3000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x64.size a ≤ S150000x64.size a
  hwx1_2 : ∀ i : grid1.Coords, EltTy.bits .f32 = 32 ∨ (Rect.block (s := S150000x64) S3000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x64.size a ≤ S150000x64.size a
  hwx1_3 : ∀ i : grid1.Coords, EltTy.bits .f32 = 32 ∨ (Rect.block (s := S150000x64) S3000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x64.size a ≤ S150000x64.size a
  hwx2_0 : ∀ i : grid2.Coords, EltTy.bits .f32 = 32 ∨ (Rect.block (s := S150000x64) S3000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x1.size a ≤ S150000x1.size a
  hwx2_1 : ∀ i : grid2.Coords, EltTy.bits .f32 = 32 ∨ (Rect.block (s := S150000x1) S3000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x64.size a ≤ S150000x64.size a
  hwx2_2 : ∀ i : grid2.Coords, EltTy.bits .f32 = 32 ∨ (Rect.block (s := S150000x64) S3000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x64.size a ≤ S150000x64.size a
  hwx2_3 : ∀ i : grid2.Coords, EltTy.bits .f32 = 32 ∨ (Rect.block (s := S150000x64) S3000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3000x64.size a ≤ S150000x64.size a
  hwx2_4 : ∀ i : grid2.Coords, EltTy.bits .f32 = 32 ∨ (Rect.block (s := S150000x64) S3000x64.size (cc2_transform_4 i) (hinb2_4 i)).WholeWords (EltTy.packing .f32)

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

abbrev win0_0 : Pipeline.Window sig grid0 :=
  Pipeline.Window.ofSpec (Memref.whole main_arg0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S3000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S3000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S3000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S3000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_0) S3000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26_1) S3000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S3000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S3000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S3000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26_0) S3000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v37) S3000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S150000x64 : Shape := ⟨2, ![150000, 64]⟩
abbrev S2x4000000 : Shape := ⟨2, ![2, 4000000]⟩
abbrev S1x4000000 : Shape := ⟨2, ![1, 4000000]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S4000000x64 : Shape := ⟨2, ![4000000, 64]⟩

abbrev nBuf : Space → Nat
  | .hbm => 79
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S2x4000000, .i32⟩
  | .hbm, ⟨2, _⟩ => ⟨S1x4000000, .i32⟩
  | .hbm, ⟨3, _⟩ => ⟨S4000000, .i32⟩
  | .hbm, ⟨4, _⟩ => ⟨S1x4000000, .i32⟩
  | .hbm, ⟨5, _⟩ => ⟨S4000000, .i32⟩
  | .hbm, ⟨6, _⟩ => ⟨S_, .f32⟩
  | .hbm, ⟨7, _⟩ => ⟨S4000000, .f32⟩
  | .hbm, ⟨8, _⟩ => ⟨S_, .f32⟩
  | .hbm, ⟨9, _⟩ => ⟨S150000, .f32⟩
  | .hbm, ⟨10, _⟩ => ⟨S4000000x1, .i32⟩
  | .hbm, ⟨11, _⟩ => ⟨S150000, .f32⟩
  | .hbm, ⟨12, _⟩ => ⟨S_, .f32⟩
  | .hbm, ⟨13, _⟩ => ⟨S150000, .f32⟩
  | .hbm, ⟨14, _⟩ => ⟨S150000, .i1⟩
  | .hbm, ⟨15, _⟩ => ⟨S_, .f32⟩
  | .hbm, ⟨16, _⟩ => ⟨S150000, .f32⟩
  | .hbm, ⟨17, _⟩ => ⟨S150000, .f32⟩
  | .hbm, ⟨18, _⟩ => ⟨S150000, .f32⟩
  | .hbm, ⟨19, _⟩ => ⟨S_, .f32⟩
  | .hbm, ⟨20, _⟩ => ⟨S_, .f32⟩
  | .hbm, ⟨21, _⟩ => ⟨S150000, .f32⟩
  | .hbm, ⟨22, _⟩ => ⟨S150000, .f32⟩
  | .hbm, ⟨23, _⟩ => ⟨S_, .i32⟩
  | .hbm, ⟨24, _⟩ => ⟨S4000000, .i32⟩
  | .hbm, ⟨25, _⟩ => ⟨S4000000, .i1⟩
  | .hbm, ⟨26, _⟩ => ⟨S_, .i32⟩
  | .hbm, ⟨27, _⟩ => ⟨S4000000, .i32⟩
  | .hbm, ⟨28, _⟩ => ⟨S4000000, .i32⟩
  | .hbm, ⟨29, _⟩ => ⟨S4000000, .i32⟩
  | .hbm, ⟨30, _⟩ => ⟨S4000000x1, .i32⟩
  | .hbm, ⟨31, _⟩ => ⟨S4000000, .f32⟩
  | .hbm, ⟨32, _⟩ => ⟨S_, .i32⟩
  | .hbm, ⟨33, _⟩ => ⟨S4000000, .i32⟩
  | .hbm, ⟨34, _⟩ => ⟨S4000000, .i1⟩
  | .hbm, ⟨35, _⟩ => ⟨S_, .i32⟩
  | .hbm, ⟨36, _⟩ => ⟨S4000000, .i32⟩
  | .hbm, ⟨37, _⟩ => ⟨S4000000, .i32⟩
  | .hbm, ⟨38, _⟩ => ⟨S4000000, .i32⟩
  | .hbm, ⟨39, _⟩ => ⟨S4000000x1, .i32⟩
  | .hbm, ⟨40, _⟩ => ⟨S4000000, .f32⟩
  | .hbm, ⟨41, _⟩ => ⟨S4000000, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000x64, .f32⟩
  | .hbm, ⟨51, _⟩ => ⟨S4000000x1, .f32⟩
  | .hbm, ⟨52, _⟩ => ⟨S4000000x64, .f32⟩
  | .hbm, ⟨53, _⟩ => ⟨S4000000x64, .f32⟩
  | .hbm, ⟨54, _⟩ => ⟨S_, .f32⟩
  | .hbm, ⟨55, _⟩ => ⟨S150000x64, .f32⟩
  | .hbm, ⟨56, _⟩ => ⟨S4000000x1, .i32⟩
  | .hbm, ⟨57, _⟩ => ⟨S150000x64, .f32⟩
  | .hbm, ⟨58, _⟩ => ⟨S_, .i32⟩
  | .hbm, ⟨59, _⟩ => ⟨S4000000, .i32⟩
  | .hbm, ⟨60, _⟩ => ⟨S4000000, .i1⟩
  | .hbm, ⟨61, _⟩ => ⟨S_, .i32⟩
  | .hbm, ⟨62, _⟩ => ⟨S4000000, .i32⟩
  | .hbm, ⟨63, _⟩ => ⟨S4000000, .i32⟩
  | .hbm, ⟨64, _⟩ => ⟨S4000000, .i32⟩
  | .hbm, ⟨65, _⟩ => ⟨S4000000x1, .i32⟩
  | .hbm, ⟨66, _⟩ => ⟨S4000000x64, .f32⟩
  | .hbm, ⟨67, _⟩ => ⟨S4000000x1, .f32⟩
  | .hbm, ⟨68, _⟩ => ⟨S4000000x64, .f32⟩
  | .hbm, ⟨69, _⟩ => ⟨S4000000x64, .f32⟩
  | .hbm, ⟨70, _⟩ => ⟨S_, .f32⟩
  | .hbm, ⟨71, _⟩ => ⟨S150000x64, .f32⟩
  | .hbm, ⟨72, _⟩ => ⟨S4000000x1, .i32⟩
  | .hbm, ⟨73, _⟩ => ⟨S150000x64, .f32⟩
  | .hbm, ⟨74, _⟩ => ⟨S150000x64, .f32⟩
  | .hbm, ⟨75, _⟩ => ⟨S150000x64, .f32⟩
  | .hbm, ⟨76, _⟩ => ⟨S_, .f32⟩
  | .hbm, ⟨77, _⟩ => ⟨S150000x64, .f32⟩
  | .hbm, ⟨78, _⟩ => ⟨S150000x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_c_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  scatter_S150000_S4000000x1_S4000000_n_0_0_1_wf : ScatterDims.WF S150000 S4000000x1 S4000000 [] [0] [0] 1
  gather_S150000_S4000000x1_S4000000_n_0_n_n_0_1_1_wf : GatherDims.WF S150000 S4000000x1 S4000000 [] [0] [] [0] [] 1 ![1]
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000_S4000000x1_S4000000_n_0_n_n_0_1_1 : GatherDims S150000 S4000000x1 S4000000 where
  offsetDims := []
  collapsedSliceDims := [0]
  operandBatchingDims := []
  startIndicesBatchingDims := []
  startIndexMap := [0]
  indexVectorDim := 1
  sliceSizes := ![1]
  wf := gather_S150000_S4000000x1_S4000000_n_0_n_n_0_1_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf

class Facts : Prop extends Facts₀ where

variable [Facts]
-- ==== Proof.RSpec.lean ====
/-
  The reference program's result, named piece by piece.

  The reference computes the same source rows, target rows, in-degrees and normalisers as the kernel's host side. Its
  edge weight is the product of the normalisers of the edge's two ends, each read by indexing the vector of normalisers
  (a negative index wrapped, then clamped). One propagation step of a node array Y gathers Y's row at each edge's source,
  multiplies it by the edge's weight spread over the 64 lanes, and accumulates it at the edge's target row. The result is
  (X + step X + step (step X)) / 3, the two sums left to right. Each definition is spelt with the very operations the
  printed program applies, so the run's result term is refOut of the two argument arrays by unfolding.
-/
import proofs.«114014_j68410239091163_1_alg».proof.Proof.RefRunPatched
import Idealize.ShloMosaic.PureOps.Ideal

noncomputable section

namespace Cert.ReferenceIdeal.RV

open Cert.ReferenceIdeal Cert.ReferenceIdeal.Gen
open Idealize.ShloMosaic Idealize.ShloMosaic.TcCoe Idealize.SL.Sem

/-- The edges' source rows: row 0 of the edge array. -/
def rowV (E : IVec S2x4000000 32) : IVec S4000000 32 :=
  shapeCast S4000000 (extractStridedSlice S1x4000000 ![0, 0] E slices_S2x4000000_S1x4000000_0_0) shapeCasts_S1x4000000_S4000000

/-- The edges' target rows: row 1 of the edge array. -/
def colV (E : IVec S2x4000000 32) : IVec S4000000 32 :=
  shapeCast S4000000 (extractStridedSlice S1x4000000 ![1, 0] E slices_S2x4000000_S1x4000000_1_0) shapeCasts_S1x4000000_S4000000

/-- A negative index counted from the end: the number of nodes added to it. -/
def wrapIdx (v : IVec S4000000 32) : IVec S4000000 32 :=
  select (cmpi .slt v (broadcastInDim S4000000 ![] bcast_S_S4000000 (constantI S_ 32 0#32)))
    (addi v (broadcastInDim S4000000 ![] bcast_S_S4000000 (constantI S_ 32 150000#32))) v

/-- A vector of indices kept as a column of start indices. -/
def asCol (v : IVec S4000000 32) : IVec S4000000x1 32 :=
  broadcastInDim S4000000x1 ![0] bcast_S4000000_S4000000x1_0 v

/-- The in-degrees: ones accumulated at the target rows. -/
def deg (E : IVec S2x4000000 32) : FVec Ideal S150000 .f32 :=
  Host.scatterAdd scatter_S150000_S4000000x1_S4000000_n_0_0_1
    (broadcastInDim S150000 ![] bcast_S_S150000 (constant S_ .f32 0x00000000#32))
    (asCol (colV E))
    (broadcastInDim S4000000 ![] bcast_S_S4000000 (constant S_ .f32 0x3F800000#32))

/-- The normalisers: the reciprocal square root of the degree (at least 1) where the degree is positive, 0 elsewhere. -/
def dis (E : IVec S2x4000000 32) : FVec Ideal S150000 .f32 :=
  select (cmpf .ogt (deg E) (broadcastInDim S150000 ![] bcast_S_S150000 (constant S_ .f32 0x00000000#32)))
    (Host.rsqrt (maximumf (deg E) (broadcastInDim S150000 ![] bcast_S_S150000 (constant S_ .f32 0x3F800000#32))))
    (broadcastInDim S150000 ![] bcast_S_S150000 (id (constant S_ .f32 0x00000000#32)))

/-- The edge weights: the normaliser at the edge's source times the normaliser at its target. -/
def wgt (E : IVec S2x4000000 32) : FVec Ideal S4000000 .f32 :=
  mulf (Host.gather gather_S150000_S4000000x1_S4000000_n_0_n_n_0_1_1 (dis E) (asCol (wrapIdx (rowV E))))
    (Host.gather gather_S150000_S4000000x1_S4000000_n_0_n_n_0_1_1 (dis E) (asCol (wrapIdx (colV E))))

/-- One propagation step: Y's rows at the edges' sources, weighted, accumulated at the edges' targets. -/
def prop (E : IVec S2x4000000 32) (Y : FVec Ideal S150000x64 .f32) : FVec Ideal S150000x64 .f32 :=
  Host.scatterAdd scatter_S150000x64_S4000000x1_S4000000x64_1_0_0_1
    (broadcastInDim S150000x64 ![] bcast_S_S150000x64 (constant S_ .f32 0x00000000#32))
    (asCol (colV E))
    (mulf (Host.gather gather_S150000x64_S4000000x1_S4000000x64_1_0_n_n_0_1_164 Y (asCol (wrapIdx (rowV E))))
      (broadcastInDim S4000000x64 ![0, 1] bcast_S4000000x1_S4000000x64_0_1
        (broadcastInDim S4000000x1 ![0] bcast_S4000000_S4000000x1_0 (wgt E))))

/-- The reference's result: the mean of the input, one step and two steps, as a quotient by 3. -/
def refOut (E : IVec S2x4000000 32) (X : FVec Ideal S150000x64 .f32) : FVec Ideal S150000x64 .f32 :=
  Host.divf (addf (addf X (prop E X)) (prop E (prop E X)))
    (broadcastInDim S150000x64 ![] bcast_S_S150000x64 (constant S_ .f32 0x40400000#32))

set_option maxRecDepth 16384 in
/-- The run's result term is refOut of the launch contents of the two arguments. -/
theorem res_eq (m : (ℓ : Loc nD τ sig) → Buf (Elt Ideal) ℓ) (c : Dev nD) :
    Cert.ReferenceIdeal.ValueP.res_main_v58 (F := Ideal) m c
      = refOut (m ((c.tc : Thread nD τ).loc main_arg1)) (m ((c.tc : Thread nD τ).loc main_arg0)) := by
  unfold Cert.ReferenceIdeal.ValueP.res_main_v58
  rfl

end Cert.ReferenceIdeal.RV

end
-- ==== Proof.KRun.lean ====
/-
  The idealized kernel's run with its result named.

  The program is three kernel regions among stretches of host operations. Its generated frame proof runs the whole program
  through the several-region launch theorem and keeps, of the final state, only that the two argument arrays are as
  launched. The same run knows more: every unscoped buffer ends at the last boundary's contents (the fold W8 of the
  generated frame: the launch memory pushed through each host stretch and each region's write-backs). Here the run is
  stated once more with that fact kept for the result buffer: the result array ends at W8 read at the result's reference.
-/
import proofs.«114014_j68410239091163_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last boundary's
    contents and the argument arrays as launched. -/
theorem run_result : θ_run defs (onTc (τ := τ) (main (F := F))) ⟨m, fun _ => 0, ρ⟩ (fun r => ∀ c : Dev nD,
      r.2.mem ((c.tc : Thread nD τ).loc main_v37) = W8 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v37 (by decide)),
       (h c _ (mem_uc main_arg0 (by decide))).trans (W8_main_arg0 m ρ c),
       (h c _ (mem_uc main_arg1 (by decide))).trans (W8_main_arg1 m ρ c)⟩)

end Cert.KernelIdeal.KV

end
-- ==== Proof.KSpec.lean ====
/-
  The host side of the idealized kernel, named piece by piece.

  From the edge array E : [2, 4000000] the program takes the source rows (row 0 of E) and the target rows (row 1 of E).
  The in-degree of node n is the number of edges whose target is n (ones accumulated at the target rows, an edge whose target
  is not a node row dropped); the normaliser of n is 1 / sqrt(max(deg n, 1)) where deg n > 0 and 0 elsewhere; it is kept
  as a column. One propagation step of a node array Y gathers, for every edge, Y's row at the edge's source (a negative
  source first wrapped by the number of nodes, then clamped into range, as indexing does) and accumulates it at the edge's
  target row. Each definition is spelt with the very operations the printed program applies, so that a buffer's contents
  after a stretch of host operations is one of these terms.
-/
import proofs.«114014_j68410239091163_1_alg».proof.Proof.Gen.KernelIdeal

noncomputable section

namespace Cert.KernelIdeal.KV

open Cert.KernelIdeal Cert.KernelIdeal.Gen
open Idealize.ShloMosaic

/-- The edges' source rows: row 0 of the edge array. -/
def rowV (E : IVec S2x4000000 32) : IVec S4000000 32 :=
  shapeCast S4000000 (extractStridedSlice S1x4000000 ![0, 0] E slices_S2x4000000_S1x4000000_0_0) shapeCasts_S1x4000000_S4000000

/-- The edges' target rows: row 1 of the edge array. -/
def colV (E : IVec S2x4000000 32) : IVec S4000000 32 :=
  shapeCast S4000000 (extractStridedSlice S1x4000000 ![1, 0] E slices_S2x4000000_S1x4000000_1_0) shapeCasts_S1x4000000_S4000000

/-- A negative index counted from the end: the number of nodes added to it. -/
def wrapIdx (v : IVec S4000000 32) : IVec S4000000 32 :=
  select (cmpi .slt v (broadcastInDim S4000000 ![] bcast_S_S4000000 (constantI S_ 32 0#32)))
    (addi v (broadcastInDim S4000000 ![] bcast_S_S4000000 (constantI S_ 32 150000#32))) v

/-- A vector of indices kept as a column of start indices. -/
def asCol (v : IVec S4000000 32) : IVec S4000000x1 32 :=
  broadcastInDim S4000000x1 ![0] bcast_S4000000_S4000000x1_0 v

/-- The in-degrees: ones accumulated at the target rows. -/
def deg (E : IVec S2x4000000 32) : FVec Ideal S150000 .f32 :=
  Host.scatterAdd scatter_S150000_S4000000x1_S4000000_n_0_0_1
    (broadcastInDim S150000 ![] bcast_S_S150000 (constant S_ .f32 0x00000000#32))
    (asCol (colV E))
    (broadcastInDim S4000000 ![] bcast_S_S4000000 (constant S_ .f32 0x3F800000#32))

/-- The normalisers: the reciprocal square root of the degree (at least 1) where the degree is positive, 0 elsewhere. -/
def dis (E : IVec S2x4000000 32) : FVec Ideal S150000 .f32 :=
  select (cmpf .ogt (deg E) (broadcastInDim S150000 ![] bcast_S_S150000 (constant S_ .f32 0x00000000#32)))
    (Host.rsqrt (maximumf (deg E) (broadcastInDim S150000 ![] bcast_S_S150000 (constant S_ .f32 0x3F800000#32))))
    (broadcastInDim S150000 ![] bcast_S_S150000 (id (constant S_ .f32 0x00000000#32)))

/-- The normalisers as a column. -/
def disCol (E : IVec S2x4000000 32) : FVec Ideal S150000x1 .f32 :=
  shapeCast S150000x1 (dis E) shapeCasts_S150000_S150000x1

/-- One propagation step: the rows of Y at the edges' sources accumulated at the edges' targets. -/
def aggOf (row col : IVec S4000000 32) (Y : FVec Ideal S150000x64 .f32) : FVec Ideal S150000x64 .f32 :=
  Host.scatterAdd scatter_S150000x64_S4000000x1_S4000000x64_1_0_0_1
    (broadcastInDim S150000x64 ![] bcast_S_S150000x64 (constant S_ .f32 0x00000000#32))
    (asCol col)
    (Host.gather gather_S150000x64_S4000000x1_S4000000x64_1_0_n_n_0_1_164 Y (asCol (wrapIdx row)))

end Cert.KernelIdeal.KV

end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.KRegion.lean ====
/-
  What each of the three kernel regions leaves in its output arrays, as one function of the arrays it finds.

  Every region walks the 150000 node rows in 50 blocks of 3000 rows; at each block it loads the block of its row-wise
  operands and the matching 3000 entries of the normaliser column, and stores a pointwise expression of them. So block t of
  an output array is block t of one whole-array function of the operands: each row of an operand scaled by that row's entry
  of the column (once, or twice for the second region's second output), and for the last region the mean of three such
  arrays. The blocks tile the array (row r lies in block r / 3000), hence the array ends holding that function.
-/
import proofs.«114014_j68410239091163_1_alg».proof.Proof.Gen.KernelIdeal.Frame
import proofs.«114014_j68410239091163_1_alg».proof.Proof.LibIndexRead
import Idealize.ShloMosaic.Lib.Pipeline.Value
import Idealize.ShloMosaic.Lib.ValueIdx
import Idealize.ShloMosaic.Lib.ValueLayout

set_option maxRecDepth 16384

noncomputable section

namespace Cert.KernelIdeal.KV

open Cert.KernelIdeal Cert.KernelIdeal.Gen
open Idealize.ShloMosaic Idealize.ShloMosaic.TcCoe Idealize.ShloMosaic.ValueIdx Idealize.ShloMosaic.RowRead
open Idealize.SL.Sem
open Idealize.ShloMosaic.Pipeline (Dat Cfg Window)

/-- The column entry of an element's row. -/
abbrev rowCol (i : S150000x64.Idx) : S150000x1.Idx := ix2 (⟨(i 0).val, idx2_lt0 i⟩ : Fin 150000) (0 : Fin 1)

/-- Each row of a node array scaled by its entry of a column. -/
def scaleRows (A : S150000x64.Idx → EReal) (D : S150000x1.Idx → EReal) : S150000x64.Idx → EReal :=
  fun i => A i * D (rowCol i)

/-- The named third: the kernel's folded reciprocal, which the certificate's table reads as 1/3. -/
def third : EReal := Named.named (F := Ideal) κ "inv_3" (φ := .f32) 0x3EAAAAAB#32

/-- The mean of three node arrays, as the last region computes it: the two sums left to right, then the named third. -/
def mean3 (X E1 T : S150000x64.Idx → EReal) : S150000x64.Idx → EReal :=
  fun i => ((X i + E1 i) + T i) * third

theorem hz : (![0, 0] : Fin 2 → Nat) = fun _ => 0 := funext fun a => by fin_cases a <;> rfl

/-! ## The bodies' stored values at (p, q) -/

/-- The first body stores the loaded block's entry times the column block's entry of row p. -/
theorem pay0_at (v0 : Vec Ideal S3000x1 .f32) (v4 : Vec Ideal S3000x64 .f32) (p : Fin 3000) (q : Fin 64) :
    k0_pay1 v0 v4 (ix2 p q) = v4 (ix2 p q) * v0 (ix2 p (0 : Fin 1)) := by
  unfold k0_pay1
  rw [mulf_apply, shapeCast_self, shapeCast_self, broadcastTo_a1_ab_apply]

/-- The second body's first store: the same product. -/
theorem pay1a_at (v0 : Vec Ideal S3000x1 .f32) (v4 : Vec Ideal S3000x64 .f32) (p : Fin 3000) (q : Fin 64) :
    k1_pay2 v0 v4 (ix2 p q) = v4 (ix2 p q) * v0 (ix2 p (0 : Fin 1)) := by
  unfold k1_pay2 k1_pay1
  rw [mulf_apply]
  simp only [shapeCast_self]
  rw [broadcastTo_a1_ab_apply]

/-- The second body's second store: that product times the column entry once more. -/
theorem pay1b_at (v0 : Vec Ideal S3000x1 .f32) (v4 : Vec Ideal S3000x64 .f32) (p : Fin 3000) (q : Fin 64) :
    k1_pay3 v0 v4 (ix2 p q) = (v4 (ix2 p q) * v0 (ix2 p (0 : Fin 1))) * v0 (ix2 p (0 : Fin 1)) := by
  unfold k1_pay3
  rw [mulf_apply, pay1a_at]
  unfold k1_pay1
  simp only [shapeCast_self]
  rw [broadcastTo_a1_ab_apply]

/-- The last body stores (the third operand plus the fourth, plus the first times the column entry) times the named third. -/
theorem pay2_at (v0 : Vec Ideal S3000x1 .f32) (v4 v7 v8 : Vec Ideal S3000x64 .f32) (p : Fin 3000) (q : Fin 64) :
    k2_pay1 v0 v4 v7 v8 (ix2 p q)
      = ((v7 (ix2 p q) + v8 (ix2 p q)) + v4 (ix2 p q) * v0 (ix2 p (0 : Fin 1))) * third := by
  unfold k2_pay1 third
  rw [mulf_apply, addf_apply, addf_apply, mulf_apply, broadcast_apply]
  simp only [shapeCast_self]
  rw [broadcastTo_a1_ab_apply]

variable (V : (c : Dev nD) → (b : Ref sig .tc) → Buf (Elt Ideal) ((c : Thread nD τ).loc b))

/-- Region 0's index maps, decided over the grid: every window's block at point t is block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-! ## Region 0, output window 2 -/

/-- What point t writes back: block t of the rows of the first operand scaled by the column. -/
theorem flushed0 (c : Dev nD) (t : Fin cfg0.N) :
    (dat0 V c).flushed 2 t = ((cfg0.win 2).blk t).view.read (Elt Ideal) (scaleRows (V c main_arg0) (V c main_v14)) := by
  show (cfg0.win 2).cut (grid0.coords t) ((dat0 V c).after 2 t) = _
  rw [after0_2]
  unfold out0_2
  rw [View.canon_unit_zero hz]
  simp only [View.ld_unit_zero (S := S3000x64) hz, View.ld_unit_zero (S := S3000x1) hz]
  obtain ⟨e0r, e0c, e1r, e1c, e2r, e2c⟩ := idx_facts0 t
  funext j
  obtain ⟨p, q, rfl⟩ : ∃ (p : Fin 3000) (q : Fin 64), j = ix2 p q := ⟨j 0, j 1, eq_ix2 j⟩
  refine (pay0_at (iblk0 V c 1 t) (iblk0 V c 0 t) p q).trans ?_
  have hb0 : (iblk0 V c 0 t (ix2 p q) : EReal) = (V c main_arg0 (((cfg0.win 2).blk t).view.emb (ix2 p q)) : EReal) := by
    show V c main_arg0 (((cfg0.win 0).blk t).view.emb (ix2 p q)) = _
    refine congrArg _ (funext fun a => Fin.ext ?_)
    match a with
    | ⟨0, _⟩ => show win0_0.index t (0 : Fin 2) * 3000 + 1 * p.val = win0_2.index t (0 : Fin 2) * 3000 + 1 * p.val; omega
    | ⟨1, _⟩ => show win0_0.index t (1 : Fin 2) * 64 + 1 * q.val = win0_2.index t (1 : Fin 2) * 64 + 1 * q.val; omega
  have hb1 : (iblk0 V c 1 t (ix2 p (0 : Fin 1)) : EReal) = (V c main_v14 (rowCol (((cfg0.win 2).blk t).view.emb (ix2 p q))) : EReal) := by
    show V c main_v14 (((cfg0.win 1).blk t).view.emb (ix2 p (0 : Fin 1))) = _
    refine congrArg _ (funext fun a => Fin.ext ?_)
    match a with
    | ⟨0, _⟩ => show win0_1.index t (0 : Fin 2) * 3000 + 1 * p.val = win0_2.index t (0 : Fin 2) * 3000 + 1 * p.val; omega
    | ⟨1, _⟩ => show win0_1.index t (1 : Fin 2) * 1 + 1 * 0 = 0; omega
  rw [hb0, hb1]
  rfl

/-- An element is in point t's block iff each coordinate is in the block's range on its axis. -/
theorem mem_blk0 (t : Fin cfg0.N) (i : S150000x64.Idx) :
    i ∈ ((cfg0.win 2).blk t).view.set ↔ ∀ a : Fin 2, win0_2.index t a * S3000x64.size a ≤ (i a).val
      ∧ (i a).val < win0_2.index t a * S3000x64.size a + S3000x64.size a := by
  show i ∈ ((View.whole main_v15).slice (win0_2.rect t)).set ↔ _
  rw [View.set_slice_whole, Rect.mem_set_unit]
  exact Iff.rfl

/-- Every element is in some point's block: row r lies in block r / 3000. -/
theorem cover0 (i : S150000x64.Idx) :
    ∃ t : Fin cfg0.N, (cfg0.win 2).flush t = true ∧ i ∈ ((cfg0.win 2).blk t).view.set := by
  have hi0 : (i 0).val < 150000 := (i 0).isLt
  have hi1 : (i 1).val < 64 := (i 1).isLt
  have hN : cfg0.N = 50 := N_0
  have hlt : (i 0).val / 3000 < cfg0.N := by rw [hN]; omega
  obtain ⟨e0r, e0c, e1r, e1c, e2r, e2c⟩ := idx_facts0 ⟨(i 0).val / 3000, hlt⟩
  refine ⟨⟨(i 0).val / 3000, hlt⟩, flush0_2 _, ?_⟩
  rw [mem_blk0]
  intro a
  match a with
  | ⟨0, _⟩ =>
    show win0_2.index ⟨(i 0).val / 3000, hlt⟩ (0 : Fin 2) * 3000 ≤ (i 0).val
      ∧ (i 0).val < win0_2.index ⟨(i 0).val / 3000, hlt⟩ (0 : Fin 2) * 3000 + 3000
    rw [e2r]
    show (i 0).val / 3000 * 3000 ≤ (i 0).val ∧ (i 0).val < (i 0).val / 3000 * 3000 + 3000
    omega
  | ⟨1, _⟩ =>
    show win0_2.index ⟨(i 0).val / 3000, hlt⟩ (1 : Fin 2) * 64 ≤ (i 1).val
      ∧ (i 1).val < win0_2.index ⟨(i 0).val / 3000, hlt⟩ (1 : Fin 2) * 64 + 64
    rw [e2c]
    omega

/-- THE ARRAY after the region: the rows of the first operand scaled by the column. -/
theorem final0 (c : Dev nD) : (dat0 V c).arrAt 2 cfg0.N = scaleRows (V c main_arg0) (V c main_v14) :=
  (dat0 V c).arrAt_eq_of_cover 2 (scaleRows (V c main_arg0) (V c main_v14)) (fun t _ => flushed0 V c t) (cover0)

/-- Region 1's index maps, decided over the grid: every window's block at point t is block row t, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-! ## Region 1, output window 2 -/

/-- What point t writes back: block t of the rows of the accumulated array scaled by the column. -/
theorem flushed1a (c : Dev nD) (t : Fin cfg1.N) :
    (dat1 V c).flushed 2 t = ((cfg1.win 2).blk t).view.read (Elt Ideal) (scaleRows (V c main_v25) (V c main_v14)) := by
  show (cfg1.win 2).cut (grid1.coords t) ((dat1 V c).after 2 t) = _
  rw [after1_2]
  unfold out1_2
  rw [View.canon_unit_zero hz]
  simp only [View.ld_unit_zero (S := S3000x64) hz, View.ld_unit_zero (S := S3000x1) hz]
  obtain ⟨e0r, e0c, e1r, e1c, e2r, e2c, e3r, e3c⟩ := idx_facts1 t
  funext j
  obtain ⟨p, q, rfl⟩ : ∃ (p : Fin 3000) (q : Fin 64), j = ix2 p q := ⟨j 0, j 1, eq_ix2 j⟩
  refine (pay1a_at (iblk1 V c 1 t) (iblk1 V c 0 t) p q).trans ?_
  have hb0 : (iblk1 V c 0 t (ix2 p q) : EReal) = (V c main_v25 (((cfg1.win 2).blk t).view.emb (ix2 p q)) : EReal) := by
    show V c main_v25 (((cfg1.win 0).blk t).view.emb (ix2 p q)) = _
    refine congrArg _ (funext fun a => Fin.ext ?_)
    match a with
    | ⟨0, _⟩ => show win1_0.index t (0 : Fin 2) * 3000 + 1 * p.val = win1_2.index t (0 : Fin 2) * 3000 + 1 * p.val; omega
    | ⟨1, _⟩ => show win1_0.index t (1 : Fin 2) * 64 + 1 * q.val = win1_2.index t (1 : Fin 2) * 64 + 1 * q.val; omega
  have hb1 : (iblk1 V c 1 t (ix2 p (0 : Fin 1)) : EReal) = (V c main_v14 (rowCol (((cfg1.win 2).blk t).view.emb (ix2 p q))) : EReal) := by
    show V c main_v14 (((cfg1.win 1).blk t).view.emb (ix2 p (0 : Fin 1))) = _
    refine congrArg _ (funext fun a => Fin.ext ?_)
    match a with
    | ⟨0, _⟩ => show win1_1.index t (0 : Fin 2) * 3000 + 1 * p.val = win1_2.index t (0 : Fin 2) * 3000 + 1 * p.val; omega
    | ⟨1, _⟩ => show win1_1.index t (1 : Fin 2) * 1 + 1 * 0 = 0; omega
  rw [hb0, hb1]
  rfl

/-- An element is in point t's block iff each coordinate is in the block's range on its axis. -/
theorem mem_blk1a (t : Fin cfg1.N) (i : S150000x64.Idx) :
    i ∈ ((cfg1.win 2).blk t).view.set ↔ ∀ a : Fin 2, win1_2.index t a * S3000x64.size a ≤ (i a).val
      ∧ (i a).val < win1_2.index t a * S3000x64.size a + S3000x64.size a := by
  show i ∈ ((View.whole main_v26_0).slice (win1_2.rect t)).set ↔ _
  rw [View.set_slice_whole, Rect.mem_set_unit]
  exact Iff.rfl

/-- Every element is in some point's block: row r lies in block r / 3000. -/
theorem cover1a (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  have hN : cfg1.N = 50 := N_1
  have hlt : (i 0).val / 3000 < cfg1.N := by rw [hN]; omega
  obtain ⟨e0r, e0c, e1r, e1c, e2r, e2c, e3r, e3c⟩ := idx_facts1 ⟨(i 0).val / 3000, hlt⟩
  refine ⟨⟨(i 0).val / 3000, hlt⟩, flush1_2 _, ?_⟩
  rw [mem_blk1a]
  intro a
  match a with
  | ⟨0, _⟩ =>
    show win1_2.index ⟨(i 0).val / 3000, hlt⟩ (0 : Fin 2) * 3000 ≤ (i 0).val
      ∧ (i 0).val < win1_2.index ⟨(i 0).val / 3000, hlt⟩ (0 : Fin 2) * 3000 + 3000
    rw [e2r]
    show (i 0).val / 3000 * 3000 ≤ (i 0).val ∧ (i 0).val < (i 0).val / 3000 * 3000 + 3000
    omega
  | ⟨1, _⟩ =>
    show win1_2.index ⟨(i 0).val / 3000, hlt⟩ (1 : Fin 2) * 64 ≤ (i 1).val
      ∧ (i 1).val < win1_2.index ⟨(i 0).val / 3000, hlt⟩ (1 : Fin 2) * 64 + 64
    rw [e2c]
    omega

/-- THE ARRAY after the region: the rows of the accumulated array scaled by the column. -/
theorem final1a (c : Dev nD) : (dat1 V c).arrAt 2 cfg1.N = scaleRows (V c main_v25) (V c main_v14) :=
  (dat1 V c).arrAt_eq_of_cover 2 (scaleRows (V c main_v25) (V c main_v14)) (fun t _ => flushed1a V c t) (cover1a)

/-! ## Region 1, output window 3 -/

/-- What point t writes back: block t of the rows of the accumulated array scaled by the column twice. -/
theorem flushed1b (c : Dev nD) (t : Fin cfg1.N) :
    (dat1 V c).flushed 3 t = ((cfg1.win 3).blk t).view.read (Elt Ideal) (scaleRows (scaleRows (V c main_v25) (V c main_v14)) (V c main_v14)) := by
  show (cfg1.win 3).cut (grid1.coords t) ((dat1 V c).after 3 t) = _
  rw [after1_3]
  unfold out1_3
  rw [View.canon_unit_zero hz]
  simp only [View.ld_unit_zero (S := S3000x64) hz, View.ld_unit_zero (S := S3000x1) hz]
  obtain ⟨e0r, e0c, e1r, e1c, e2r, e2c, e3r, e3c⟩ := idx_facts1 t
  funext j
  obtain ⟨p, q, rfl⟩ : ∃ (p : Fin 3000) (q : Fin 64), j = ix2 p q := ⟨j 0, j 1, eq_ix2 j⟩
  refine (pay1b_at (iblk1 V c 1 t) (iblk1 V c 0 t) p q).trans ?_
  have hb0 : (iblk1 V c 0 t (ix2 p q) : EReal) = (V c main_v25 (((cfg1.win 3).blk t).view.emb (ix2 p q)) : EReal) := by
    show V c main_v25 (((cfg1.win 0).blk t).view.emb (ix2 p q)) = _
    refine congrArg _ (funext fun a => Fin.ext ?_)
    match a with
    | ⟨0, _⟩ => show win1_0.index t (0 : Fin 2) * 3000 + 1 * p.val = win1_3.index t (0 : Fin 2) * 3000 + 1 * p.val; omega
    | ⟨1, _⟩ => show win1_0.index t (1 : Fin 2) * 64 + 1 * q.val = win1_3.index t (1 : Fin 2) * 64 + 1 * q.val; omega
  have hb1 : (iblk1 V c 1 t (ix2 p (0 : Fin 1)) : EReal) = (V c main_v14 (rowCol (((cfg1.win 3).blk t).view.emb (ix2 p q))) : EReal) := by
    show V c main_v14 (((cfg1.win 1).blk t).view.emb (ix2 p (0 : Fin 1))) = _
    refine congrArg _ (funext fun a => Fin.ext ?_)
    match a with
    | ⟨0, _⟩ => show win1_1.index t (0 : Fin 2) * 3000 + 1 * p.val = win1_3.index t (0 : Fin 2) * 3000 + 1 * p.val; omega
    | ⟨1, _⟩ => show win1_1.index t (1 : Fin 2) * 1 + 1 * 0 = 0; omega
  rw [hb0, hb1]
  rfl

/-- An element is in point t's block iff each coordinate is in the block's range on its axis. -/
theorem mem_blk1b (t : Fin cfg1.N) (i : S150000x64.Idx) :
    i ∈ ((cfg1.win 3).blk t).view.set ↔ ∀ a : Fin 2, win1_3.index t a * S3000x64.size a ≤ (i a).val
      ∧ (i a).val < win1_3.index t a * S3000x64.size a + S3000x64.size a := by
  show i ∈ ((View.whole main_v26_1).slice (win1_3.rect t)).set ↔ _
  rw [View.set_slice_whole, Rect.mem_set_unit]
  exact Iff.rfl

/-- Every element is in some point's block: row r lies in block r / 3000. -/
theorem cover1b (i : S150000x64.Idx) :
    ∃ t : Fin cfg1.N, (cfg1.win 3).flush t = true ∧ i ∈ ((cfg1.win 3).blk t).view.set := by
  have hi0 : (i 0).val < 150000 := (i 0).isLt
  have hi1 : (i 1).val < 64 := (i 1).isLt
  have hN : cfg1.N = 50 := N_1
  have hlt : (i 0).val / 3000 < cfg1.N := by rw [hN]; omega
  obtain ⟨e0r, e0c, e1r, e1c, e2r, e2c, e3r, e3c⟩ := idx_facts1 ⟨(i 0).val / 3000, hlt⟩
  refine ⟨⟨(i 0).val / 3000, hlt⟩, flush1_3 _, ?_⟩
  rw [mem_blk1b]
  intro a
  match a with
  | ⟨0, _⟩ =>
    show win1_3.index ⟨(i 0).val / 3000, hlt⟩ (0 : Fin 2) * 3000 ≤ (i 0).val
      ∧ (i 0).val < win1_3.index ⟨(i 0).val / 3000, hlt⟩ (0 : Fin 2) * 3000 + 3000
    rw [e3r]
    show (i 0).val / 3000 * 3000 ≤ (i 0).val ∧ (i 0).val < (i 0).val / 3000 * 3000 + 3000
    omega
  | ⟨1, _⟩ =>
    show win1_3.index ⟨(i 0).val / 3000, hlt⟩ (1 : Fin 2) * 64 ≤ (i 1).val
      ∧ (i 1).val < win1_3.index ⟨(i 0).val / 3000, hlt⟩ (1 : Fin 2) * 64 + 64
    rw [e3c]
    omega

/-- THE ARRAY after the region: the rows of the accumulated array scaled by the column twice. -/
theorem final1b (c : Dev nD) : (dat1 V c).arrAt 3 cfg1.N = scaleRows (scaleRows (V c main_v25) (V c main_v14)) (V c main_v14) :=
  (dat1 V c).arrAt_eq_of_cover 3 (scaleRows (scaleRows (V c main_v25) (V c main_v14)) (V c main_v14)) (fun t _ => flushed1b V c t) (cover1b)

/-- Region 2's index maps, decided over the grid: every window's block at point t is block row t, block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-! ## Region 2, output window 4 -/

/-- What point t writes back: block t of the mean of the input array, the first layer and the second accumulated array scaled by the column. -/
theorem flushed2 (c : Dev nD) (t : Fin cfg2.N) :
    (dat2 V c).flushed 4 t = ((cfg2.win 4).blk t).view.read (Elt Ideal) (mean3 (V c main_arg0) (V c main_v26_0) (scaleRows (V c main_v36) (V c main_v14))) := by
  show (cfg2.win 4).cut (grid2.coords t) ((dat2 V c).after 4 t) = _
  rw [after2_4]
  unfold out2_4
  rw [View.canon_unit_zero hz]
  simp only [View.ld_unit_zero (S := S3000x64) hz, View.ld_unit_zero (S := S3000x1) hz]
  obtain ⟨e0r, e0c, e1r, e1c, e2r, e2c, e3r, e3c, e4r, e4c⟩ := idx_facts2 t
  funext j
  obtain ⟨p, q, rfl⟩ : ∃ (p : Fin 3000) (q : Fin 64), j = ix2 p q := ⟨j 0, j 1, eq_ix2 j⟩
  refine (pay2_at (iblk2 V c 1 t) (iblk2 V c 0 t) (iblk2 V c 2 t) (iblk2 V c 3 t) p q).trans ?_
  have hb0 : (iblk2 V c 0 t (ix2 p q) : EReal) = (V c main_v36 (((cfg2.win 4).blk t).view.emb (ix2 p q)) : EReal) := by
    show V c main_v36 (((cfg2.win 0).blk t).view.emb (ix2 p q)) = _
    refine congrArg _ (funext fun a => Fin.ext ?_)
    match a with
    | ⟨0, _⟩ => show win2_0.index t (0 : Fin 2) * 3000 + 1 * p.val = win2_4.index t (0 : Fin 2) * 3000 + 1 * p.val; omega
    | ⟨1, _⟩ => show win2_0.index t (1 : Fin 2) * 64 + 1 * q.val = win2_4.index t (1 : Fin 2) * 64 + 1 * q.val; omega
  have hb1 : (iblk2 V c 1 t (ix2 p (0 : Fin 1)) : EReal) = (V c main_v14 (rowCol (((cfg2.win 4).blk t).view.emb (ix2 p q))) : EReal) := by
    show V c main_v14 (((cfg2.win 1).blk t).view.emb (ix2 p (0 : Fin 1))) = _
    refine congrArg _ (funext fun a => Fin.ext ?_)
    match a with
    | ⟨0, _⟩ => show win2_1.index t (0 : Fin 2) * 3000 + 1 * p.val = win2_4.index t (0 : Fin 2) * 3000 + 1 * p.val; omega
    | ⟨1, _⟩ => show win2_1.index t (1 : Fin 2) * 1 + 1 * 0 = 0; omega
  have hb2 : (iblk2 V c 2 t (ix2 p q) : EReal) = (V c main_arg0 (((cfg2.win 4).blk t).view.emb (ix2 p q)) : EReal) := by
    show V c main_arg0 (((cfg2.win 2).blk t).view.emb (ix2 p q)) = _
    refine congrArg _ (funext fun a => Fin.ext ?_)
    match a with
    | ⟨0, _⟩ => show win2_2.index t (0 : Fin 2) * 3000 + 1 * p.val = win2_4.index t (0 : Fin 2) * 3000 + 1 * p.val; omega
    | ⟨1, _⟩ => show win2_2.index t (1 : Fin 2) * 64 + 1 * q.val = win2_4.index t (1 : Fin 2) * 64 + 1 * q.val; omega
  have hb3 : (iblk2 V c 3 t (ix2 p q) : EReal) = (V c main_v26_0 (((cfg2.win 4).blk t).view.emb (ix2 p q)) : EReal) := by
    show V c main_v26_0 (((cfg2.win 3).blk t).view.emb (ix2 p q)) = _
    refine congrArg _ (funext fun a => Fin.ext ?_)
    match a with
    | ⟨0, _⟩ => show win2_3.index t (0 : Fin 2) * 3000 + 1 * p.val = win2_4.index t (0 : Fin 2) * 3000 + 1 * p.val; omega
    | ⟨1, _⟩ => show win2_3.index t (1 : Fin 2) * 64 + 1 * q.val = win2_4.index t (1 : Fin 2) * 64 + 1 * q.val; omega
  rw [hb0, hb1, hb2, hb3]
  rfl

/-- An element is in point t's block iff each coordinate is in the block's range on its axis. -/
theorem mem_blk2 (t : Fin cfg2.N) (i : S150000x64.Idx) :
    i ∈ ((cfg2.win 4).blk t).view.set ↔ ∀ a : Fin 2, win2_4.index t a * S3000x64.size a ≤ (i a).val
      ∧ (i a).val < win2_4.index t a * S3000x64.size a + S3000x64.size a := by
  show i ∈ ((View.whole main_v37).slice (win2_4.rect t)).set ↔ _
  rw [View.set_slice_whole, Rect.mem_set_unit]
  exact Iff.rfl

/-- Every element is in some point's block: row r lies in block r / 3000. -/
theorem cover2 (i : S150000x64.Idx) :
    ∃ t : Fin cfg2.N, (cfg2.win 4).flush t = true ∧ i ∈ ((cfg2.win 4).blk t).view.set := by
  have hi0 : (i 0).val < 150000 := (i 0).isLt
  have hi1 : (i 1).val < 64 := (i 1).isLt
  have hN : cfg2.N = 50 := N_2
  have hlt : (i 0).val / 3000 < cfg2.N := by rw [hN]; omega
  obtain ⟨e0r, e0c, e1r, e1c, e2r, e2c, e3r, e3c, e4r, e4c⟩ := idx_facts2 ⟨(i 0).val / 3000, hlt⟩
  refine ⟨⟨(i 0).val / 3000, hlt⟩, flush2_4 _, ?_⟩
  rw [mem_blk2]
  intro a
  match a with
  | ⟨0, _⟩ =>
    show win2_4.index ⟨(i 0).val / 3000, hlt⟩ (0 : Fin 2) * 3000 ≤ (i 0).val
      ∧ (i 0).val < win2_4.index ⟨(i 0).val / 3000, hlt⟩ (0 : Fin 2) * 3000 + 3000
    rw [e4r]
    show (i 0).val / 3000 * 3000 ≤ (i 0).val ∧ (i 0).val < (i 0).val / 3000 * 3000 + 3000
    omega
  | ⟨1, _⟩ =>
    show win2_4.index ⟨(i 0).val / 3000, hlt⟩ (1 : Fin 2) * 64 ≤ (i 1).val
      ∧ (i 1).val < win2_4.index ⟨(i 0).val / 3000, hlt⟩ (1 : Fin 2) * 64 + 64
    rw [e4c]
    omega

/-- THE ARRAY after the region: the mean of the input array, the first layer and the second accumulated array scaled by the column. -/
theorem final2 (c : Dev nD) : (dat2 V c).arrAt 4 cfg2.N = mean3 (V c main_arg0) (V c main_v26_0) (scaleRows (V c main_v36) (V c main_v14)) :=
  (dat2 V c).arrAt_eq_of_cover 4 (mean3 (V c main_arg0) (V c main_v26_0) (scaleRows (V c main_v36) (V c main_v14))) (fun t _ => flushed2 V c t) (cover2)

end Cert.KernelIdeal.KV

end
-- ==== Proof.KHost.lean ====
/-
  The idealized kernel's buffers at the boundaries of its regions, read back through the host operations.

  Before the first region the host has computed the source and target rows of the edges, the in-degrees and the column of
  normalisers; between the regions it runs one propagation step each time (gather the rows at the edges' sources, accumulate
  them at the edges' targets). A buffer that a stretch of host operations does not write keeps its contents, and a region
  changes only its output arrays. So every operand of every region is a term over the launch contents of the two arguments.
-/
import proofs.«114014_j68410239091163_1_alg».proof.Proof.Gen.KernelIdeal.Frame
import proofs.«114014_j68410239091163_1_alg».proof.Proof.KSpec
import proofs.«114014_j68410239091163_1_alg».proof.Proof.KRegion
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.ShloMosaic.StableHlo
open Idealize.SL.Sem

/-! ## The two propagation stretches, from any entry contents -/

section Stretch
variable (Vv : Valuation τ sig (Elt Ideal))

/-- After the stretch before the second region the accumulated array is one propagation step of the first region's output. -/
theorem stretch1_v25 : after (hostOps1 (F := Ideal)) Vv (Proc.devRef .tc main_v25)
    = aggOf (Vv (Proc.devRef .tc main_v1)) (Vv (Proc.devRef .tc main_v3)) (Vv (Proc.devRef .tc main_v15)) := by
  after_results
  rfl

theorem stretch1_v14 : after (hostOps1 (F := Ideal)) Vv (Proc.devRef .tc main_v14) = Vv (Proc.devRef .tc main_v14) := by
  after_results
theorem stretch1_v1 : after (hostOps1 (F := Ideal)) Vv (Proc.devRef .tc main_v1) = Vv (Proc.devRef .tc main_v1) := by
  after_results
theorem stretch1_v3 : after (hostOps1 (F := Ideal)) Vv (Proc.devRef .tc main_v3) = Vv (Proc.devRef .tc main_v3) := by
  after_results
theorem stretch1_arg0 : after (hostOps1 (F := Ideal)) Vv (Proc.devRef .tc main_arg0) = Vv (Proc.devRef .tc main_arg0) := by
  after_results

/-- After the stretch before the last region the accumulated array is one propagation step of the second region's second output. -/
theorem stretch2_v36 : after (hostOps2 (F := Ideal)) Vv (Proc.devRef .tc main_v36)
    = aggOf (Vv (Proc.devRef .tc main_v1)) (Vv (Proc.devRef .tc main_v3)) (Vv (Proc.devRef .tc main_v26_1)) := by
  after_results
  rfl

theorem stretch2_v14 : after (hostOps2 (F := Ideal)) Vv (Proc.devRef .tc main_v14) = Vv (Proc.devRef .tc main_v14) := by
  after_results
theorem stretch2_arg0 : after (hostOps2 (F := Ideal)) Vv (Proc.devRef .tc main_arg0) = Vv (Proc.devRef .tc main_arg0) := by
  after_results
theorem stretch2_v26_0 : after (hostOps2 (F := Ideal)) Vv (Proc.devRef .tc main_v26_0) = Vv (Proc.devRef .tc main_v26_0) := by
  after_results

end Stretch

/-! ## The stretches before the first region, from any entry contents -/

section Stretch0
variable (Vv : Valuation τ sig (Elt Ideal))

/-- The inlined select: where the mask holds, the second operand; elsewhere the third operand spread over the nodes. -/
theorem stretch0b_v13 : after (hostOps0_1 (F := Ideal)) Vv (Proc.devRef .tc main_v13)
    = select (Vv (Proc.devRef .tc main_v9)) (Vv (Proc.devRef .tc main_v12))
        (broadcastInDim S150000 ![] bcast_S_S150000 (id (Vv (Proc.devRef .tc main_cst_3)))) := by
  after_results
  rfl

/-- The vector of normalisers kept as a column. -/
theorem stretch0c_v14 : after (hostOps0_2 (F := Ideal)) Vv (Proc.devRef .tc main_v14)
    = shapeCast S150000x1 (Vv (Proc.devRef .tc main_v13)) shapeCasts_S150000_S150000x1 := by
  after_results
  rfl

theorem stretch0b_v1 : after (hostOps0_1 (F := Ideal)) Vv (Proc.devRef .tc main_v1) = Vv (Proc.devRef .tc main_v1) := by
  after_results
theorem stretch0b_v3 : after (hostOps0_1 (F := Ideal)) Vv (Proc.devRef .tc main_v3) = Vv (Proc.devRef .tc main_v3) := by
  after_results
theorem stretch0b_arg0 : after (hostOps0_1 (F := Ideal)) Vv (Proc.devRef .tc main_arg0) = Vv (Proc.devRef .tc main_arg0) := by
  after_results
theorem stretch0c_v1 : after (hostOps0_2 (F := Ideal)) Vv (Proc.devRef .tc main_v1) = Vv (Proc.devRef .tc main_v1) := by
  after_results
theorem stretch0c_v3 : after (hostOps0_2 (F := Ideal)) Vv (Proc.devRef .tc main_v3) = Vv (Proc.devRef .tc main_v3) := by
  after_results
theorem stretch0c_arg0 : after (hostOps0_2 (F := Ideal)) Vv (Proc.devRef .tc main_arg0) = Vv (Proc.devRef .tc main_arg0) := by
  after_results

/-- The first stretch: the source rows, the target rows, the mask "degree positive", the reciprocal square root of the
    degree kept at least 1, and the zero the select falls back on, from the edge array as the stretch finds it. -/
theorem stretch0a_v1 : after (hostOps0 (F := Ideal)) Vv (Proc.devRef .tc main_v1) = rowV (Vv (Proc.devRef .tc main_arg1)) := by
  after_results
  rfl
theorem stretch0a_v3 : after (hostOps0 (F := Ideal)) Vv (Proc.devRef .tc main_v3) = colV (Vv (Proc.devRef .tc main_arg1)) := by
  after_results
  rfl
theorem stretch0a_v9 : after (hostOps0 (F := Ideal)) Vv (Proc.devRef .tc main_v9)
    = cmpf .ogt (deg (Vv (Proc.devRef .tc main_arg1))) (broadcastInDim S150000 ![] bcast_S_S150000 (constant S_ .f32 0x00000000#32)) := by
  after_results
  rfl
theorem stretch0a_v12 : after (hostOps0 (F := Ideal)) Vv (Proc.devRef .tc main_v12)
    = Host.rsqrt (maximumf (deg (Vv (Proc.devRef .tc main_arg1))) (broadcastInDim S150000 ![] bcast_S_S150000 (constant S_ .f32 0x3F800000#32))) := by
  after_results
  rfl
theorem stretch0a_cst3 : (after (hostOps0 (F := Ideal)) Vv (Proc.devRef .tc main_cst_3) : FVec Ideal S_ .f32)
    = constant (F := Ideal) S_ .f32 0x00000000#32 := by
  after_results
theorem stretch0a_arg0 : after (hostOps0 (F := Ideal)) Vv (Proc.devRef .tc main_arg0) = Vv (Proc.devRef .tc main_arg0) := by
  after_results

end Stretch0

/-! ## The boundaries, from the launch memory -/

variable (m : (ℓ : Loc nD τ sig) → Buf (Elt Ideal) ℓ) (ρ : Dev nD → PrngReg)

/-- The input array and the edge array, as launched. -/
abbrev X0 (c : Dev nD) : FVec Ideal S150000x64 .f32 := m ((c : Thread nD τ).loc main_arg0)
abbrev E0 (c : Dev nD) : IVec S2x4000000 32 := m ((c : Thread nD τ).loc main_arg1)

/-- At the first region's entry: the edges' source rows ... -/
theorem at3_v1 (c : Dev nD) : W3 m ρ c (Proc.devRef .tc main_v1) = rowV (E0 m c) := by
  show after hostOps0_2 (after hostOps0_1 (after hostOps0 (W0 m ρ c))) (Proc.devRef .tc main_v1) = _
  rw [stretch0c_v1, stretch0b_v1, stretch0a_v1]
/-- ... their target rows ... -/
theorem at3_v3 (c : Dev nD) : W3 m ρ c (Proc.devRef .tc main_v3) = colV (E0 m c) := by
  show after hostOps0_2 (after hostOps0_1 (after hostOps0 (W0 m ρ c))) (Proc.devRef .tc main_v3) = _
  rw [stretch0c_v3, stretch0b_v3, stretch0a_v3]
/-- ... the column of normalisers ... -/
theorem at3_v14 (c : Dev nD) : W3 m ρ c (Proc.devRef .tc main_v14) = disCol (E0 m c) := by
  show after hostOps0_2 (after hostOps0_1 (after hostOps0 (W0 m ρ c))) (Proc.devRef .tc main_v14) = _
  rw [stretch0c_v14, stretch0b_v13, stretch0a_v9, stretch0a_v12, stretch0a_cst3]
  rfl
/-- ... and the input array untouched. -/
theorem at3_arg0 (c : Dev nD) : W3 m ρ c (Proc.devRef .tc main_arg0) = X0 m c := by
  show after hostOps0_2 (after hostOps0_1 (after hostOps0 (W0 m ρ c))) (Proc.devRef .tc main_arg0) = _
  rw [stretch0c_arg0, stretch0b_arg0, stretch0a_arg0]

/-! ### After the first region -/

theorem at4_v15 (c : Dev nD) : W4 m ρ c (Proc.devRef .tc main_v15) = scaleRows (X0 m c) (disCol (E0 m c)) := by
  refine (W4_arr m ρ c 2).trans ((final0 (V3 m ρ) c).trans ?_)
  show scaleRows (W3 m ρ c (Proc.devRef .tc main_arg0)) (W3 m ρ c (Proc.devRef .tc main_v14)) = _
  rw [at3_arg0, at3_v14]
theorem at4_arg0 (c : Dev nD) : W4 m ρ c (Proc.devRef .tc main_arg0) = (X0 m c) :=
  ((W4_arr m ρ c 0).trans (((dat0 (V3 m ρ) c).arrAt_in 0 rfl _).trans (A_eq0 (V3 m ρ) c 0))).trans (at3_arg0 m ρ c)
theorem at4_v14 (c : Dev nD) : W4 m ρ c (Proc.devRef .tc main_v14) = (disCol (E0 m c)) :=
  ((W4_arr m ρ c 1).trans (((dat0 (V3 m ρ) c).arrAt_in 1 rfl _).trans (A_eq0 (V3 m ρ) c 1))).trans (at3_v14 m ρ c)
theorem at4_v1 (c : Dev nD) : W4 m ρ c (Proc.devRef .tc main_v1) = (rowV (E0 m c)) :=
  (W4_of_ne m ρ c main_v1 (by decide)).trans (at3_v1 m ρ c)
theorem at4_v3 (c : Dev nD) : W4 m ρ c (Proc.devRef .tc main_v3) = (colV (E0 m c)) :=
  (W4_of_ne m ρ c main_v3 (by decide)).trans (at3_v3 m ρ c)

/-! ### At the second region's entry -/

theorem at5_v25 (c : Dev nD) : W5 m ρ c (Proc.devRef .tc main_v25) = (aggOf (rowV (E0 m c)) (colV (E0 m c)) (scaleRows (X0 m c) (disCol (E0 m c)))) := by
  show after hostOps1 (W4 m ρ c) (Proc.devRef .tc main_v25) = _
  rw [stretch1_v25, at4_v1, at4_v3, at4_v15]
theorem at5_arg0 (c : Dev nD) : W5 m ρ c (Proc.devRef .tc main_arg0) = (X0 m c) := by
  show after hostOps1 (W4 m ρ c) (Proc.devRef .tc main_arg0) = _
  rw [stretch1_arg0, at4_arg0]
theorem at5_v14 (c : Dev nD) : W5 m ρ c (Proc.devRef .tc main_v14) = (disCol (E0 m c)) := by
  show after hostOps1 (W4 m ρ c) (Proc.devRef .tc main_v14) = _
  rw [stretch1_v14, at4_v14]
theorem at5_v1 (c : Dev nD) : W5 m ρ c (Proc.devRef .tc main_v1) = (rowV (E0 m c)) := by
  show after hostOps1 (W4 m ρ c) (Proc.devRef .tc main_v1) = _
  rw [stretch1_v1, at4_v1]
theorem at5_v3 (c : Dev nD) : W5 m ρ c (Proc.devRef .tc main_v3) = (colV (E0 m c)) := by
  show after hostOps1 (W4 m ρ c) (Proc.devRef .tc main_v3) = _
  rw [stretch1_v3, at4_v3]

/-! ### After the second region -/

theorem at6_v26_0 (c : Dev nD) : W6 m ρ c (Proc.devRef .tc main_v26_0) = (scaleRows (aggOf (rowV (E0 m c)) (colV (E0 m c)) (scaleRows (X0 m c) (disCol (E0 m c)))) (disCol (E0 m c))) := by
  refine (W6_arr m ρ c 2).trans ((final1a (V5 m ρ) c).trans ?_)
  show scaleRows (W5 m ρ c (Proc.devRef .tc main_v25)) (W5 m ρ c (Proc.devRef .tc main_v14)) = _
  rw [at5_v25, at5_v14]
theorem at6_v26_1 (c : Dev nD) : W6 m ρ c (Proc.devRef .tc main_v26_1) = (scaleRows (scaleRows (aggOf (rowV (E0 m c)) (colV (E0 m c)) (scaleRows (X0 m c) (disCol (E0 m c)))) (disCol (E0 m c))) (disCol (E0 m c))) := by
  refine (W6_arr m ρ c 3).trans ((final1b (V5 m ρ) c).trans ?_)
  show scaleRows (scaleRows (W5 m ρ c (Proc.devRef .tc main_v25)) (W5 m ρ c (Proc.devRef .tc main_v14))) (W5 m ρ c (Proc.devRef .tc main_v14)) = _
  rw [at5_v25, at5_v14]
theorem at6_v14 (c : Dev nD) : W6 m ρ c (Proc.devRef .tc main_v14) = (disCol (E0 m c)) :=
  ((W6_arr m ρ c 1).trans (((dat1 (V5 m ρ) c).arrAt_in 1 rfl _).trans (A_eq1 (V5 m ρ) c 1))).trans (at5_v14 m ρ c)
theorem at6_arg0 (c : Dev nD) : W6 m ρ c (Proc.devRef .tc main_arg0) = (X0 m c) :=
  (W6_of_ne m ρ c main_arg0 (by decide)).trans (at5_arg0 m ρ c)
theorem at6_v1 (c : Dev nD) : W6 m ρ c (Proc.devRef .tc main_v1) = (rowV (E0 m c)) :=
  (W6_of_ne m ρ c main_v1 (by decide)).trans (at5_v1 m ρ c)
theorem at6_v3 (c : Dev nD) : W6 m ρ c (Proc.devRef .tc main_v3) = (colV (E0 m c)) :=
  (W6_of_ne m ρ c main_v3 (by decide)).trans (at5_v3 m ρ c)

/-! ### At the last region's entry -/

theorem at7_v36 (c : Dev nD) : W7 m ρ c (Proc.devRef .tc main_v36) = (aggOf (rowV (E0 m c)) (colV (E0 m c)) (scaleRows (scaleRows (aggOf (rowV (E0 m c)) (colV (E0 m c)) (scaleRows (X0 m c) (disCol (E0 m c)))) (disCol (E0 m c))) (disCol (E0 m c)))) := by
  show after hostOps2 (W6 m ρ c) (Proc.devRef .tc main_v36) = _
  rw [stretch2_v36, at6_v1, at6_v3, at6_v26_1]
theorem at7_arg0 (c : Dev nD) : W7 m ρ c (Proc.devRef .tc main_arg0) = (X0 m c) := by
  show after hostOps2 (W6 m ρ c) (Proc.devRef .tc main_arg0) = _
  rw [stretch2_arg0, at6_arg0]
theorem at7_v14 (c : Dev nD) : W7 m ρ c (Proc.devRef .tc main_v14) = (disCol (E0 m c)) := by
  show after hostOps2 (W6 m ρ c) (Proc.devRef .tc main_v14) = _
  rw [stretch2_v14, at6_v14]
theorem at7_v26_0 (c : Dev nD) : W7 m ρ c (Proc.devRef .tc main_v26_0) = (scaleRows (aggOf (rowV (E0 m c)) (colV (E0 m c)) (scaleRows (X0 m c) (disCol (E0 m c)))) (disCol (E0 m c))) := by
  show after hostOps2 (W6 m ρ c) (Proc.devRef .tc main_v26_0) = _
  rw [stretch2_v26_0, at6_v26_0]

/-! ### The result -/

/-- The idealized kernel's result as one term of the launch contents: with D the column of normalisers and P one
    propagation step, the first layer is L1 = D . P (D . X) (rows scaled before and after the step), the second is
    D . P (D . L1), and the result is the mean of X, L1 and the second layer. -/
def kernelOut (E : IVec S2x4000000 32) (X : FVec Ideal S150000x64 .f32) : FVec Ideal S150000x64 .f32 :=
  mean3 X (scaleRows (aggOf (rowV E) (colV E) (scaleRows X (disCol E))) (disCol E))
    (scaleRows (aggOf (rowV E) (colV E)
      (scaleRows (scaleRows (aggOf (rowV E) (colV E) (scaleRows X (disCol E))) (disCol E)) (disCol E))) (disCol E))

theorem result_value (c : Dev nD) : W8 m ρ c (Proc.devRef .tc main_v37) = kernelOut (E0 m c) (X0 m c) := by
  refine (W8_arr m ρ c 4).trans ((final2 (V7 m ρ) c).trans ?_)
  show mean3 (W7 m ρ c (Proc.devRef .tc main_arg0)) (W7 m ρ c (Proc.devRef .tc main_v26_0))
    (scaleRows (W7 m ρ c (Proc.devRef .tc main_v36)) (W7 m ρ c (Proc.devRef .tc main_v14))) = _
  rw [at7_arg0, at7_v26_0, at7_v36, at7_v14]
  rfl

end Cert.KernelIdeal.KV

end
-- ==== Proof.LibRowIndex.lean ====
/-
  Row gathers and a row scatter read by coordinates.

  Indexing a matrix x : [N, C] (or a vector x : [N]) by an integer vector idx : [M] lowers to a gather whose start
  indices are the vector kept as a column [M, 1]: result row e is the operand's row at the start index idx[e], read as a
  signed integer and clamped into [0, N - 1] (a gather clamps every start index). The accumulating scatter of the rows of
  an [M, C] array of updates into an [N, C] operand at such a column of indices sends update (e, j) to element
  (idx[e], j), the index read signed and NOT clamped: an update whose index is negative or at least N is dropped.
  Each statement takes the dimension numbers as a variable with its fields as hypotheses, so that it applies to a printed
  record whose fields are those literals.
-/
import Idealize.ShloMosaic.PureOps.Ideal
import Idealize.ShloMosaic.Lib.ValueIdx

namespace Idealize.ShloMosaic.RowIndex

open Idealize.ShloMosaic Idealize.ShloMosaic.ValueIdx

variable {α : Type}

/-- The row a start index selects among N rows: the index read signed, clamped into [0, N - 1]. -/
def clampRow (N : ℕ) (hN : 0 < N) {w : ℕ} (b : BitVec w) : Fin N := ⟨min b.toInt.toNat (N - 1), by omega⟩

/-- A start index that is, read signed, the row n selects row n. -/
theorem clampRow_of_toInt {N : ℕ} (hN : 0 < N) {w : ℕ} (b : BitVec w) (n : Fin N) (h : b.toInt = (n.val : ℤ)) :
    clampRow N hN b = n := by
  refine Fin.ext ?_
  show min b.toInt.toNat (N - 1) = n.val
  rw [h, Int.toNat_natCast]
  have := n.isLt
  omega

/-- The dimension numbers of a matrix's row gather, its slice sizes and their conditions left as given. -/
abbrev rowsOfMatrix {N C M : ℕ} (ss : Fin 2 → ℕ)
    (wf : GatherDims.WF ⟨2, ![N, C]⟩ ⟨2, ![M, 1]⟩ ⟨2, ![M, C]⟩ [1] [0] [] [0] [] 1 ss) :
    GatherDims ⟨2, ![N, C]⟩ ⟨2, ![M, 1]⟩ ⟨2, ![M, C]⟩ := ⟨[1], [0], [], [], [0], 1, ss, wf⟩

/-- THE ROW GATHER OF A MATRIX read at (e, j): the operand at row idx[e] (signed, clamped), column j. -/
theorem gather_rows2_apply {N C M w : ℕ} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (x : (⟨2, ![N, C]⟩ : Shape).Idx → α) (idx : IVec ⟨2, ![M, 1]⟩ w) (e : Fin M) (j : Fin C) :
    Host.gather d x idx (ix2 e j) = x (ix2 (clampRow N hN (idx (ix2 e (0 : Fin 1)))) j) := by
  obtain ⟨od, cd, ob, sb, sm, iv, ss, wf⟩ := d
  dsimp only at hod hcd hob hsb hsm hiv
  subst hod hcd hob hsb hsm hiv
  show Host.gather (rowsOfMatrix ss wf) x idx (ix2 e j) = _
  unfold Host.gather
  congr 1
  funext a
  refine Fin.ext ?_
  match a with
  | ⟨0, _⟩ =>
    show (rowsOfMatrix ss wf).start (ix2 e j) idx 0 + (rowsOfMatrix ss wf).batchCoord (ix2 e j) 0
        + (rowsOfMatrix ss wf).offCoord (ix2 e j) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsOfMatrix ss wf).startIndexMap from List.mem_singleton.mpr rfl)]
    have hsi : (rowsOfMatrix ss wf).siIdx (ix2 e j) ⟨List.idxOf (0 : Fin 2) (rowsOfMatrix ss wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, (rowsOfMatrix ss wf).slice_collapsed 0 (List.mem_singleton.mpr rfl)]
    rfl
  | ⟨1, _⟩ =>
    show (rowsOfMatrix ss wf).start (ix2 e j) idx 1 + (rowsOfMatrix ss wf).batchCoord (ix2 e j) 1
        + (rowsOfMatrix ss wf).offCoord (ix2 e j) 1 = j.val
    rw [GatherDims.batchCoord_eq_zero _ _ _ List.not_mem_nil]
    unfold GatherDims.start
    rw [dif_neg (show (1 : Fin 2) ∉ (rowsOfMatrix ss wf).startIndexMap from (by decide : (1 : Fin 2) ∉ [(0 : Fin 2)]))]
    unfold GatherDims.offCoord
    rw [dif_pos (show (1 : Fin 2) ∈ (rowsOfMatrix ss wf).sKept from (GatherDims.mem_sKept _ _).mpr ⟨(by decide : (1 : Fin 2) ∉ [(0 : Fin 2)]), List.not_mem_nil⟩)]
    simp only [Nat.zero_add, Nat.add_zero]
    rfl

/-- The dimension numbers of a vector's row gather, its slice sizes and their conditions left as given. -/
abbrev rowsOfVector {N M : ℕ} (ss : Fin 1 → ℕ)
    (wf : GatherDims.WF ⟨1, ![N]⟩ ⟨2, ![M, 1]⟩ ⟨1, ![M]⟩ [] [0] [] [0] [] 1 ss) :
    GatherDims ⟨1, ![N]⟩ ⟨2, ![M, 1]⟩ ⟨1, ![M]⟩ := ⟨[], [0], [], [], [0], 1, ss, wf⟩

/-- THE ROW GATHER OF A VECTOR read at e: the operand at idx[e] (signed, clamped). -/
theorem gather_rows1_apply {N M w : ℕ} (hN : 0 < N)
    (d : GatherDims ⟨1, ![N]⟩ ⟨2, ![M, 1]⟩ ⟨1, ![M]⟩)
    (hod : d.offsetDims = []) (hcd : d.collapsedSliceDims = [0]) (hob : d.operandBatchingDims = [])
    (hsb : d.startIndicesBatchingDims = []) (hsm : d.startIndexMap = [0]) (hiv : d.indexVectorDim = 1)
    (x : (⟨1, ![N]⟩ : Shape).Idx → α) (idx : IVec ⟨2, ![M, 1]⟩ w) (e : Fin M) :
    Host.gather d x idx (ix1 e) = x (ix1 (clampRow N hN (idx (ix2 e (0 : Fin 1))))) := by
  obtain ⟨od, cd, ob, sb, sm, iv, ss, wf⟩ := d
  dsimp only at hod hcd hob hsb hsm hiv
  subst hod hcd hob hsb hsm hiv
  show Host.gather (rowsOfVector ss wf) x idx (ix1 e) = _
  unfold Host.gather
  congr 1
  funext a
  refine Fin.ext ?_
  match a with
  | ⟨0, _⟩ =>
    show (rowsOfVector ss wf).start (ix1 e) idx 0 + (rowsOfVector ss wf).batchCoord (ix1 e) 0
        + (rowsOfVector ss wf).offCoord (ix1 e) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (rowsOfVector ss wf).startIndexMap from List.mem_singleton.mpr rfl)]
    have hsi : (rowsOfVector ss wf).siIdx (ix1 e) ⟨List.idxOf (0 : Fin 1) (rowsOfVector ss wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, (rowsOfVector ss wf).slice_collapsed 0 (List.mem_singleton.mpr rfl)]
    rfl

/-- The dimension numbers of the scatter of an [M, C] array's rows into an [N, C] operand, their conditions left as given. -/
abbrev rowsInto {N C M : ℕ} (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ := ⟨[1], [0], [0], 1, wf⟩

/-- WHERE A ROW SCATTER'S UPDATE LANDS: if update (e, j) lands on element i, then idx[e] read signed is i's row
    (so it is a row of the operand: it is not clamped) and j is i's column. -/
theorem scatter_rows_lands {N C M w : ℕ}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (idx : IVec ⟨2, ![M, 1]⟩ w) (e : Fin M) (j : Fin C) (i : (⟨2, ![N, C]⟩ : Shape).Idx)
    (h : d.resultIdx? (ix2 e j) idx = some i) :
    (idx (ix2 e (0 : Fin 1))).toInt = ((i 0).val : ℤ) ∧ i 1 = j := by
  obtain ⟨uw, iw, sd, iv, wf⟩ := d
  dsimp only at huw hiw hsd hiv
  subst huw hiw hsd hiv
  change (rowsInto wf).resultIdx? (ix2 e j) idx = some i at h
  have hs0 : (rowsInto wf).start (ix2 e j) idx 0 = (idx (ix2 e (0 : Fin 1))).toInt := by
    unfold ScatterDims.start
    rw [dif_pos (show (0 : Fin 2) ∈ (rowsInto wf).scatterDimsToOperandDims from List.mem_singleton.mpr rfl)]
    have hsi : (rowsInto wf).siIdx (ix2 e j) ⟨List.idxOf (0 : Fin 2) (rowsInto wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowsInto wf).window (ix2 e j) 0 = 0 := by
    unfold ScatterDims.window
    rw [dif_neg (show (0 : Fin 2) ∉ (rowsInto wf).sKept from by
      simp [ScatterDims.sKept, Shape.kept, List.mem_filter, List.mem_finRange])]
  have hs1 : (rowsInto wf).start (ix2 e j) idx 1 = 0 := by
    unfold ScatterDims.start
    rw [dif_neg (show (1 : Fin 2) ∉ (rowsInto wf).scatterDimsToOperandDims from (by decide : (1 : Fin 2) ∉ [(0 : Fin 2)]))]
  have hw1 : (rowsInto wf).window (ix2 e j) 1 = j.val := by
    unfold ScatterDims.window
    rw [dif_pos (show (1 : Fin 2) ∈ (rowsInto wf).sKept from by
      simp [ScatterDims.sKept, Shape.kept, List.mem_filter, List.mem_finRange])]
    rfl
  unfold ScatterDims.resultIdx? at h
  split at h
  · rename_i hb
    injection h with h
    subst h
    refine ⟨?_, Fin.ext ?_⟩
    · show _ = ((((rowsInto wf).start (ix2 e j) idx 0 + ((rowsInto wf).window (ix2 e j) 0 : ℤ)).toNat : ℕ) : ℤ)
      have h0 := hb 0
      rw [hs0, hw0] at h0 ⊢
      omega
    · show ((rowsInto wf).start (ix2 e j) idx 1 + ((rowsInto wf).window (ix2 e j) 1 : ℤ)).toNat = j.val
      rw [hs1, hw1]
      omega
  · cases h

/-- THE ACCUMULATING SCATTER AT AN ELEMENT, at the ideal instance: the operand there plus the sum of the updates that
    land there, whatever the dimension numbers. -/
theorem scatterAdd_at {s si su : Shape} (d : ScatterDims s si su) {w : ℕ} (x : FVec Ideal s .f32) (idx : IVec si w)
    (upd : FVec Ideal su .f32) (i : s.Idx) :
    Host.scatterAdd d x idx upd i = x i + ∑ j ∈ Finset.univ.filter (fun j => d.resultIdx? j idx = some i), upd j := rfl

end Idealize.ShloMosaic.RowIndex
-- ==== Proof.BIndex.lean ====
/-
  Which element an update reads and where it lands.

  An update u = (e, j) of one propagation step belongs to edge e and lane j. It reads the element (s, j) of the previous
  layer, s the edge's source row as indexing resolves it (a negative index wrapped by the number of nodes, the result
  clamped into the node range), and it lands on the element (t, j), t the edge's target row read as a signed integer,
  provided t is a node row; otherwise it lands nowhere. The reference's edge weight reads the normalisers at the source
  row s and at the target row as INDEXING resolves it. For an update that lands, the target index is a node row, so it is
  neither wrapped nor clamped: that second weight row is the row the update lands on.
-/
import proofs.«114014_j68410239091163_1_alg».proof.Proof.KSpec
import proofs.«114014_j68410239091163_1_alg».proof.Proof.LibRowIndex
import proofs.«114014_j68410239091163_1_alg».proof.Proof.LibIndexRead
import Idealize.ShloMosaic.Lib.ValueIdx

noncomputable section

namespace Cert.KernelIdeal.KV

open Cert.KernelIdeal Cert.KernelIdeal.Gen
open Idealize.ShloMosaic Idealize.ShloMosaic.ValueIdx Idealize.ShloMosaic.RowRead Idealize.ShloMosaic.RowIndex

/-- The node row of an element. -/
def rowOf (i : S150000x64.Idx) : S150000.Idx := ix1 (⟨(i 0).val, idx2_lt0 i⟩ : Fin 150000)

/-- The edge and the lane of an update. -/
def edgeOf (u : S4000000x64.Idx) : Fin 4000000 := ⟨(u 0).val, idx2_lt0 u⟩
def laneOf (u : S4000000x64.Idx) : Fin 64 := ⟨(u 1).val, idx2_lt1 u⟩

theorem upd_eq (u : S4000000x64.Idx) : u = ix2 (edgeOf u) (laneOf u) :=
  funext fun a => Fin.ext (by match a with | ⟨0, _⟩ => rfl | ⟨1, _⟩ => rfl)

/-- The node row that indexing by the vector v resolves for edge e: wrapped if negative, then clamped. -/
def pick (v : IVec S4000000 32) (e : Fin 4000000) : Fin 150000 :=
  clampRow 150000 (by decide) (asCol (wrapIdx v) (ix2 e (0 : Fin 1)))

/-- Where an update lands. -/
def land (E : IVec S2x4000000 32) (u : S4000000x64.Idx) : Option S150000x64.Idx :=
  ScatterDims.resultIdx? scatter_S150000x64_S4000000x1_S4000000x64_1_0_0_1 u (asCol (colV E))

/-- The element an update reads. -/
def src (E : IVec S2x4000000 32) (u : S4000000x64.Idx) : S150000x64.Idx := ix2 (pick (rowV E) (edgeOf u)) (laneOf u)

/-- The two rows at which the reference's weight of an update's edge reads the normalisers. -/
def wr (E : IVec S2x4000000 32) (u : S4000000x64.Idx) : S150000.Idx := ix1 (pick (rowV E) (edgeOf u))
def wc (E : IVec S2x4000000 32) (u : S4000000x64.Idx) : S150000.Idx := ix1 (pick (colV E) (edgeOf u))

/-- The row of the element an update reads is the first weight row. -/
theorem row_src (E : IVec S2x4000000 32) (u : S4000000x64.Idx) : rowOf (src E u) = wr E u := rfl

/-- A matrix's rows gathered at the indices v, read at update u. -/
theorem gather_at (Y : FVec Ideal S150000x64 .f32) (v : IVec S4000000 32) (u : S4000000x64.Idx) :
    Host.gather gather_S150000x64_S4000000x1_S4000000x64_1_0_n_n_0_1_164 Y (asCol (wrapIdx v)) u
      = Y (ix2 (pick v (edgeOf u)) (laneOf u)) := by
  conv_lhs => rw [upd_eq u]
  exact gather_rows2_apply (by decide) _ rfl rfl rfl rfl rfl rfl Y _ (edgeOf u) (laneOf u)

/-- A column of start indices read at edge e is the vector at e. -/
theorem asCol_at (v : IVec S4000000 32) (e : Fin 4000000) : asCol v (ix2 e (0 : Fin 1)) = v (ix1 e) :=
  broadcastInDim_a_a1_apply _ _ rfl v e 0

/-- An index that is not negative is not wrapped. -/
theorem wrap_of_nonneg (v : IVec S4000000 32) (e : Fin 4000000) (h : 0 ≤ (v (ix1 e)).toInt) :
    wrapIdx v (ix1 e) = v (ix1 e) := by
  unfold wrapIdx
  rw [select_apply]
  have hc : cmpi .slt v (broadcastInDim S4000000 ![] bcast_S_S4000000 (constantI S_ 32 0#32)) (ix1 e) = 0#1 := by
    show IntOp.cmpi .slt (v (ix1 e)) (broadcastInDim S4000000 ![] bcast_S_S4000000 (constantI S_ 32 0#32) (ix1 e)) = 0#1
    rw [broadcastInDim_scalar_apply]
    show BitVec.ofBool ((v (ix1 e)).slt 0#32) = 0#1
    have : (v (ix1 e)).slt 0#32 = false := by
      simp only [BitVec.slt, BitVec.toInt_zero, decide_eq_false_iff_not, not_lt]
      exact h
    rw [this]
    rfl
  rw [hc, select_zero]

/-- THE LANDING ROW: an update that lands on element i has its second weight row at i's row. -/
theorem lands_row (E : IVec S2x4000000 32) (u : S4000000x64.Idx) (i : S150000x64.Idx) (h : land E u = some i) :
    wc E u = rowOf i := by
  unfold land at h
  rw [upd_eq u] at h
  obtain ⟨h0, -⟩ := scatter_rows_lands _ rfl rfl rfl rfl (asCol (colV E)) (edgeOf u) (laneOf u) i h
  rw [asCol_at] at h0
  unfold wc pick rowOf
  refine congrArg ix1 (clampRow_of_toInt (by decide) _ (⟨(i 0).val, idx2_lt0 i⟩ : Fin 150000) ?_)
  rw [asCol_at, wrap_of_nonneg _ _ (by rw [h0]; exact Int.natCast_nonneg _)]
  exact h0

end Cert.KernelIdeal.KV

end
-- ==== Proof.Layer.lean ====
/-
  The law that joins the two programs, over abstract index sets.

  Updates u (one per edge and lane) are accumulated into the elements i of a node array: update u lands on element
  land u (or nowhere), and reads its message from element src u of the previous layer. Every node row n carries a
  normaliser d n. One program scales each message by the normaliser of its SOURCE row before accumulating and scales the
  accumulated sum by the normaliser of the TARGET row afterwards; the other multiplies each message by the product of the
  two normalisers (read through two row maps wr, wc of the update) and accumulates. The two agree because the target
  normaliser is constant over the updates that land on one element, so it comes out of the sum:
      (sum_u y(src u) * d(row(src u))) * d(row i)  =  sum_u y(src u) * (d(wr u) * d(wc u)),
  the sums over the updates landing on i, given row (src u) = wr u and wc u = row i for those u. Taking a factor out of a
  sum needs finiteness on the extended reals, so the law is proved for real-valued data, and its result is real-valued
  again: it applies layer after layer.
-/
import Idealize.ShloMosaic.PureOps.Ideal

noncomputable section

namespace Cert.Layer

open Idealize.ShloMosaic

variable {I U R : Type} [Fintype U] [DecidableEq I]

/-- The sum of the updates that land on element i. -/
def acc (land : U → Option I) (f : U → EReal) (i : I) : EReal :=
  ∑ u ∈ Finset.univ.filter (fun u => land u = some i), f u

/-- A finite sum of reals, each read as an extended real, is the real sum read as an extended real. -/
theorem coe_sum (s : Finset U) (g : U → ℝ) : (∑ u ∈ s, ((g u : ℝ) : EReal)) = ((∑ u ∈ s, g u : ℝ) : EReal) := by
  classical
  refine Finset.induction_on s (by simp) fun a s ha ih => ?_
  rw [Finset.sum_insert ha, Finset.sum_insert ha, ih, EReal.coe_add]

/-- Scale by the source row, accumulate, scale by the target row. -/
def scaleAccScale (land : U → Option I) (src : U → I) (row : I → R) (d : R → EReal) (y : I → EReal) (i : I) : EReal :=
  acc land (fun u => y (src u) * d (row (src u))) i * d (row i)

/-- Accumulate the messages weighted by the product of the two normalisers. -/
def accWeighted (land : U → Option I) (src : U → I) (wr wc : U → R) (d : R → EReal) (y : I → EReal) (i : I) : EReal :=
  acc land (fun u => y (src u) * (d (wr u) * d (wc u))) i

variable (land : U → Option I) (src : U → I) (row : I → R) (wr wc : U → R)

/-- THE LAW, with the real value of both sides. -/
theorem layer_real (hsrc : ∀ u, row (src u) = wr u) (hland : ∀ u i, land u = some i → wc u = row i)
    (d : R → EReal) (dr : R → ℝ) (hd : ∀ n, d n = (dr n : EReal))
    (y : I → EReal) (yr : I → ℝ) (hy : ∀ i, y i = (yr i : EReal)) (i : I) :
    scaleAccScale land src row d y i
        = ((∑ u ∈ Finset.univ.filter (fun u => land u = some i), yr (src u) * (dr (wr u) * dr (wc u)) : ℝ) : EReal)
      ∧ accWeighted land src wr wc d y i
        = ((∑ u ∈ Finset.univ.filter (fun u => land u = some i), yr (src u) * (dr (wr u) * dr (wc u)) : ℝ) : EReal) := by
  constructor
  · unfold scaleAccScale acc
    have h1 : ∀ u, y (src u) * d (row (src u)) = ((yr (src u) * dr (row (src u)) : ℝ) : EReal) := fun u => by
      rw [hy, hd, EReal.coe_mul]
    simp only [h1]
    rw [coe_sum, hd, ← EReal.coe_mul, Finset.sum_mul]
    refine congrArg _ (Finset.sum_congr rfl fun u hu => ?_)
    have hl : land u = some i := (Finset.mem_filter.mp hu).2
    rw [hsrc u, hland u i hl]
    ring
  · unfold accWeighted acc
    have h1 : ∀ u, y (src u) * (d (wr u) * d (wc u)) = ((yr (src u) * (dr (wr u) * dr (wc u)) : ℝ) : EReal) := fun u => by
      rw [hy, hd, hd, EReal.coe_mul, EReal.coe_mul]
    simp only [h1]
    rw [coe_sum]

/-- The two arrangements of one layer are one function of real-valued data, and that function is real-valued. -/
theorem layer_eq (hsrc : ∀ u, row (src u) = wr u) (hland : ∀ u i, land u = some i → wc u = row i)
    (d : R → EReal) (hd : ∀ n, ∃ r : ℝ, d n = (r : EReal))
    (y : I → EReal) (hy : ∀ i, ∃ r : ℝ, y i = (r : EReal)) :
    scaleAccScale land src row d y = accWeighted land src wr wc d y
      ∧ ∀ i, ∃ r : ℝ, accWeighted land src wr wc d y i = (r : EReal) := by
  choose dr hdr using hd
  choose yr hyr using hy
  refine ⟨funext fun i => ?_, fun i => ⟨_, (layer_real land src row wr wc hsrc hland d dr hdr y yr hyr i).2⟩⟩
  rw [(layer_real land src row wr wc hsrc hland d dr hdr y yr hyr i).1,
    (layer_real land src row wr wc hsrc hland d dr hdr y yr hyr i).2]

end Cert.Layer

end
-- ==== Proof.Consts.lean ====
/-
  The float constants the two programs spell, as the extended reals they denote at the ideal instance: +0.0 is 0,
  1.0 is 1, 3.0 is 3, and the kernel's folded reciprocal 0.333333343, which the certificate's table names, is 1/3.
-/
import proofs.«114014_j68410239091163_1_alg».proof.KernelIdeal
import Idealize.ShloMosaic.PureOps.Ideal
import Idealize.ShloMosaic.PureOps.IdealRules

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

/-- The named reciprocal denotes the rational 1/3, by the certificate's table. -/
theorem named_third : Named.named (F := Ideal) Cert.KernelIdeal.κ "inv_3" (φ := .f32) 0x3EAAAAAB#32 = ((1 / 3 : ℝ) : EReal) :=
  IdealRules.named_const.ideal_named_scalar _ _ _ _ rfl

end Cert.Consts

end
-- ==== Proof.BKernel.lean ====
/-
  One kernel layer, index by index.

  A layer of the kernel scales the rows of Y by the normalisers, runs one propagation step, and scales the rows of the
  result by the normalisers. At element i this is (the sum, over the updates u landing on i, of Y at the element u reads
  times the normaliser of that element's row) times the normaliser of i's row: the first arrangement of the layer law.
-/
import proofs.«114014_j68410239091163_1_alg».proof.Proof.BIndex
import proofs.«114014_j68410239091163_1_alg».proof.Proof.KRegion
import proofs.«114014_j68410239091163_1_alg».proof.Proof.Layer
import proofs.«114014_j68410239091163_1_alg».proof.Proof.Consts

noncomputable section

namespace Cert.KernelIdeal.KV

open Cert.KernelIdeal Cert.KernelIdeal.Gen
open Idealize.ShloMosaic Idealize.ShloMosaic.ValueIdx Idealize.ShloMosaic.RowRead Idealize.ShloMosaic.RowIndex

/-- The column of normalisers at an element's row is the vector of normalisers at that row. -/
theorem disCol_at (E : IVec S2x4000000 32) (i : S150000x64.Idx) : disCol E (rowCol i) = dis E (rowOf i) := by
  unfold disCol rowCol rowOf
  exact shapeCast_a_a1_apply (dis E) _ _ 0

/-- The zero array the accumulation starts from reads 0. -/
theorem zeros_at (i : S150000x64.Idx) :
    (broadcastInDim S150000x64 ![] bcast_S_S150000x64 (constant (F := Ideal) S_ .f32 0x00000000#32)) i = 0 := by
  rw [broadcastInDim_scalar_apply, constant_apply, Cert.Consts.ofBits_zero]

/-- ONE KERNEL LAYER is the first arrangement of the law. -/
theorem kernel_layer (E : IVec S2x4000000 32) (Y : FVec Ideal S150000x64 .f32) :
    scaleRows (aggOf (rowV E) (colV E) (scaleRows Y (disCol E))) (disCol E)
      = Cert.Layer.scaleAccScale (land E) (src E) rowOf (dis E) Y := by
  funext i
  show aggOf (rowV E) (colV E) (scaleRows Y (disCol E)) i * disCol E (rowCol i)
    = Cert.Layer.acc (land E) (fun u => Y (src E u) * dis E (rowOf (src E u))) i * dis E (rowOf i)
  rw [disCol_at]
  refine congrArg (fun a : EReal => a * dis E (rowOf i)) ?_
  unfold aggOf Cert.Layer.acc
  rw [scatterAdd_at, zeros_at, zero_add]
  refine Finset.sum_congr rfl fun u _ => ?_
  rw [gather_at]
  show Y (src E u) * disCol E (rowCol (src E u)) = _
  rw [disCol_at]

end Cert.KernelIdeal.KV

end
-- ==== Proof.BRef.lean ====
/-
  One reference layer, index by index.

  The reference's propagation step accumulates, at element i, the messages of the updates u landing on i: Y at the element
  u reads, times the weight of u's edge spread over the lanes. The weight of an edge is the normaliser at its source row
  times the normaliser at its target row, both rows as indexing resolves them. So the step is the second arrangement of
  the layer law, over the same landing map, source map and normalisers as the kernel's layer: the two programs' host
  operations are the same operations with the same dimension numbers.
-/
import proofs.«114014_j68410239091163_1_alg».proof.Proof.BIndex
import proofs.«114014_j68410239091163_1_alg».proof.Proof.BKernel
import proofs.«114014_j68410239091163_1_alg».proof.Proof.RSpec
import proofs.«114014_j68410239091163_1_alg».proof.Proof.Layer
import proofs.«114014_j68410239091163_1_alg».proof.Proof.Consts

noncomputable section

namespace Cert.Bridge

open Cert.KernelIdeal Cert.KernelIdeal.Gen
open Idealize.ShloMosaic Idealize.ShloMosaic.ValueIdx Idealize.ShloMosaic.RowRead Idealize.ShloMosaic.RowIndex

/-! ## The reference's pieces are the kernel's -/

theorem rowV_eq (E : IVec S2x4000000 32) : Cert.ReferenceIdeal.RV.rowV E = KV.rowV E := rfl
theorem colV_eq (E : IVec S2x4000000 32) : Cert.ReferenceIdeal.RV.colV E = KV.colV E := rfl
theorem wrapIdx_eq (v : IVec S4000000 32) : Cert.ReferenceIdeal.RV.wrapIdx v = KV.wrapIdx v := rfl
theorem asCol_eq (v : IVec S4000000 32) : Cert.ReferenceIdeal.RV.asCol v = KV.asCol v := rfl
theorem dis_eq (E : IVec S2x4000000 32) : Cert.ReferenceIdeal.RV.dis E = KV.dis E := rfl

/-- The weight of edge e: the normaliser at the resolved source row times the normaliser at the resolved target row. -/
theorem wgt_at (E : IVec S2x4000000 32) (e : Fin 4000000) :
    Cert.ReferenceIdeal.RV.wgt E (ix1 e)
      = KV.dis E (ix1 (KV.pick (KV.rowV E) e)) * KV.dis E (ix1 (KV.pick (KV.colV E) e)) := by
  unfold Cert.ReferenceIdeal.RV.wgt
  rw [mulf_apply, gather_rows1_apply (by decide) _ rfl rfl rfl rfl rfl rfl,
    gather_rows1_apply (by decide) _ rfl rfl rfl rfl rfl rfl]
  rfl

/-- The weights spread over the lanes, read at update u: the weight of u's edge. -/
theorem wgt_spread_at (E : IVec S2x4000000 32) (u : S4000000x64.Idx) :
    (broadcastInDim Cert.ReferenceIdeal.S4000000x64 ![0, 1] Cert.ReferenceIdeal.Facts₀.bcast_S4000000x1_S4000000x64_0_1
      (broadcastInDim Cert.ReferenceIdeal.S4000000x1 ![0] Cert.ReferenceIdeal.Facts₀.bcast_S4000000_S4000000x1_0
        (Cert.ReferenceIdeal.RV.wgt E))) u
      = Cert.ReferenceIdeal.RV.wgt E (ix1 (KV.edgeOf u)) := by
  conv_lhs => rw [KV.upd_eq u]
  rw [broadcastInDim_a1_ab_apply _ _ rfl, broadcastInDim_a_a1_apply _ _ rfl]

/-- ONE REFERENCE LAYER is the second arrangement of the law. -/
theorem ref_layer (E : IVec S2x4000000 32) (Y : FVec Ideal S150000x64 .f32) :
    Cert.ReferenceIdeal.RV.prop E Y
      = Cert.Layer.accWeighted (KV.land E) (KV.src E) (KV.wr E) (KV.wc E) (KV.dis E) Y := by
  funext i
  unfold Cert.ReferenceIdeal.RV.prop Cert.Layer.accWeighted Cert.Layer.acc
  rw [scatterAdd_at]
  rw [broadcastInDim_scalar_apply, constant_apply, Cert.Consts.ofBits_zero, zero_add]
  show ∑ u ∈ Finset.univ.filter (fun u => KV.land E u = some i), _ = _
  refine Finset.sum_congr rfl fun u _ => ?_
  rw [mulf_apply, wgt_spread_at, wgt_at]
  show Host.gather gather_S150000x64_S4000000x1_S4000000x64_1_0_n_n_0_1_164 Y (KV.asCol (KV.wrapIdx (KV.rowV E))) u * _ = _
  rw [KV.gather_at]
  rfl

end Cert.Bridge

end
-- ==== Proof.DisReal.lean ====
/-
  The normalisers are real numbers.

  The in-degree of a node is 0 plus a sum of ones over the edges landing on it: a non-negative real. The normaliser is
  either 0 (where the mask "degree positive" fails) or the reciprocal square root of max(degree, 1), a real at least 1,
  whose reciprocal square root is the real 1 / sqrt of it. This is what lets a normaliser be taken out of a sum.
-/
import proofs.«114014_j68410239091163_1_alg».proof.Proof.KSpec
import proofs.«114014_j68410239091163_1_alg».proof.Proof.Consts
import proofs.«114014_j68410239091163_1_alg».proof.Proof.Layer
import proofs.«114014_j68410239091163_1_alg».proof.Proof.LibIndexRead
import proofs.«114014_j68410239091163_1_alg».proof.Proof.LibRowIndex
import Idealize.ShloMosaic.Lib.ValueIdx

noncomputable section

namespace Cert.KernelIdeal.KV

open Cert.KernelIdeal Cert.KernelIdeal.Gen
open Idealize.ShloMosaic Idealize.ShloMosaic.ValueIdx Idealize.ShloMosaic.RowRead Idealize.ShloMosaic.RowIndex

/-- The in-degree of a node is a non-negative real. -/
theorem deg_real (E : IVec S2x4000000 32) (n : S150000.Idx) : ∃ r : ℝ, 0 ≤ r ∧ deg E n = (r : EReal) := by
  have h1 : ∀ j : S4000000.Idx,
      (broadcastInDim S4000000 ![] bcast_S_S4000000 (constant (F := Ideal) S_ .f32 0x3F800000#32)) j = ((1 : ℝ) : EReal) :=
    fun j => by rw [broadcastInDim_scalar_apply, constant_apply, Cert.Consts.ofBits_one]
  unfold deg
  rw [scatterAdd_at, broadcastInDim_scalar_apply, constant_apply, Cert.Consts.ofBits_zero, zero_add]
  simp only [h1]
  rw [Cert.Layer.coe_sum]
  exact ⟨_, Finset.sum_nonneg fun _ _ => zero_le_one, rfl⟩

/-- The host's reciprocal square root at an index is the ideal instance's, of the element. -/
theorem hostRsqrt_at {s : Shape} (x : FVec Ideal s .f32) (i : s.Idx) : Host.rsqrt x i = Ideal.rsqrt (x i) := rfl

/-- The reciprocal square root of a positive real is the real 1 / sqrt of it. -/
theorem rsqrt_coe_pos (r : ℝ) (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

/-- The normaliser of a node is a real. -/
theorem dis_real (E : IVec S2x4000000 32) (n : S150000.Idx) : ∃ r : ℝ, dis E n = (r : EReal) := by
  obtain ⟨k, hk0, hk⟩ := deg_real E n
  unfold dis
  rw [select_apply]
  generalize cmpf .ogt (deg E) (broadcastInDim S150000 ![] bcast_S_S150000 (constant (F := Ideal) S_ .f32 0x00000000#32)) n = bit
  rcases BitVec.eq_zero_or_eq_one bit with h | h
  · subst h
    rw [select_zero, broadcastInDim_scalar_apply]
    refine ⟨0, ?_⟩
    show Ideal.ofBits .f32 0x00000000#32 = _
    rw [Cert.Consts.ofBits_zero]
    rfl
  · subst h
    rw [select_one, hostRsqrt_at, maximumf_apply, broadcastInDim_scalar_apply, constant_apply, Cert.Consts.ofBits_one, hk,
      ← EReal.coe_strictMono.monotone.map_max]
    exact ⟨_, rsqrt_coe_pos _ (lt_of_lt_of_le zero_lt_one (le_max_right _ _))⟩

end Cert.KernelIdeal.KV

end
-- ==== Proof.Bridge.lean ====
/-
  The two programs compute one function of real-valued data.

  With D the normalisers, the kernel's layer of Y is D . step (D . Y) (rows scaled before and after one propagation step)
  and the reference's is the step with each message weighted by the product of the two normalisers of its edge. By the
  layer law the two are one real-valued function whenever Y and D are real-valued; the input is real-valued under the
  precondition, the normalisers always are, and the first layer's result is real-valued again, so the law applies to
  both layers. What is left is the mean: the kernel multiplies the sum of the three arrays by the named third, which
  the certificate's table reads as 1/3, and the reference divides the same sum by 3; on the extended reals a quotient
  by 3 is the product with 1/3.
-/
import proofs.«114014_j68410239091163_1_alg».proof.Proof.BKernel
import proofs.«114014_j68410239091163_1_alg».proof.Proof.BRef
import proofs.«114014_j68410239091163_1_alg».proof.Proof.DisReal
import proofs.«114014_j68410239091163_1_alg».proof.Proof.KHost

noncomputable section

namespace Cert.Bridge

open Cert.KernelIdeal Cert.KernelIdeal.Gen
open Idealize.ShloMosaic Idealize.ShloMosaic.ValueIdx Idealize.ShloMosaic.RowRead

/-- THE KERNEL'S RESULT IS THE REFERENCE'S, for a real-valued input array. -/
theorem out_eq (E : IVec S2x4000000 32) (X : FVec Ideal S150000x64 .f32) (hX : ∀ i, ∃ r : ℝ, X i = (r : EReal)) :
    KV.kernelOut E X = Cert.ReferenceIdeal.RV.refOut E X := by
  have hd := KV.dis_real E
  have law := fun (Y : FVec Ideal S150000x64 .f32) (hY : ∀ i, ∃ r : ℝ, Y i = (r : EReal)) =>
    Cert.Layer.layer_eq (KV.land E) (KV.src E) KV.rowOf (KV.wr E) (KV.wc E) (KV.row_src E) (KV.lands_row E)
      (KV.dis E) hd Y hY
  have L1 : KV.scaleRows (KV.aggOf (KV.rowV E) (KV.colV E) (KV.scaleRows X (KV.disCol E))) (KV.disCol E)
      = Cert.ReferenceIdeal.RV.prop E X :=
    (KV.kernel_layer E X).trans ((law X hX).1.trans (ref_layer E X).symm)
  have hP : ∀ i, ∃ r : ℝ, Cert.ReferenceIdeal.RV.prop E X i = (r : EReal) := by
    rw [ref_layer]
    exact (law X hX).2
  have L2 : KV.scaleRows (KV.aggOf (KV.rowV E) (KV.colV E)
        (KV.scaleRows (Cert.ReferenceIdeal.RV.prop E X) (KV.disCol E))) (KV.disCol E)
      = Cert.ReferenceIdeal.RV.prop E (Cert.ReferenceIdeal.RV.prop E X) :=
    (KV.kernel_layer E _).trans ((law _ hP).1.trans (ref_layer E _).symm)
  unfold KV.kernelOut
  rw [L1, L2]
  funext i
  unfold KV.mean3 Cert.ReferenceIdeal.RV.refOut
  show ((X i + Cert.ReferenceIdeal.RV.prop E X i)
        + Cert.ReferenceIdeal.RV.prop E (Cert.ReferenceIdeal.RV.prop E X) i) * KV.third
    = Ideal.div ((X i + Cert.ReferenceIdeal.RV.prop E X i)
        + Cert.ReferenceIdeal.RV.prop E (Cert.ReferenceIdeal.RV.prop E X) i)
      ((broadcastInDim Cert.ReferenceIdeal.S150000x64 ![] Cert.ReferenceIdeal.Facts₀.bcast_S_S150000x64
        (constant (F := Ideal) Cert.ReferenceIdeal.S_ .f32 0x40400000#32)) i)
  rw [broadcastInDim_scalar_apply, constant_apply, Cert.Consts.ofBits_three,
    Ideal.div_coe (by norm_num : (3 : ℝ) ≠ 0)]
  unfold KV.third
  rw [Cert.Consts.named_third]

end Cert.Bridge

end
-- ==== Proof.XReal.lean ====
/-
  Under the precondition every entry of the input array is a real number.

  The precondition is the conjunction, over all elements, of |x| < +inf, evaluated to 1. A conjunction that is 1 was 1 at
  every element; at the ideal instance |x| is max(x, -x) and the word 0x7F800000 is the top element, so x is neither
  infinity: it is a real.
-/
import proofs.«114014_j68410239091163_1_alg».proof.Pre_finite_inputs
import proofs.«114014_j68410239091163_1_alg».proof.Proof.Gen.Pre_finite_inputs
import proofs.«114014_j68410239091163_1_alg».proof.Proof.LibIndexRead
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Idealize.ShloMosaic.RowRead
open Cert.Pre_finite_inputs Cert.Pre_finite_inputs.Gen

instance : Subsingleton S_.Idx := ⟨fun a b => funext fun d => d.elim0⟩

/-- The word 0x7F800000 denotes the top element. -/
theorem inf_word : Ideal.ofBits .f32 0x7F800000#32 = ⊤ := by
  simp [Ideal.ofBits, Ideal.ieee]

/-- An extended real whose absolute value is below the top element is a real. -/
theorem real_of_abs_lt_top (x : EReal) (h : max x (-x) < ⊤) : ∃ r : ℝ, x = (r : EReal) := by
  induction x using EReal.rec with
  | bot => simp at h
  | coe r => exact ⟨r, rfl⟩
  | top => simp at h

/-- THE PRECONDITION, element by element. -/
theorem real_of_pre (X : FVec Ideal S150000x64 .f32) (E : IVec S2x4000000 32)
    (h : Cert.Pre_finite_inputs.fn (F := Ideal) X E = fun _ => 1#1) (i : S150000x64.Idx) :
    ∃ r : ℝ, X i = (r : EReal) := by
  have h0 := congrFun h ix0
  dsimp only [Cert.Pre_finite_inputs.fn] at h0
  have hi := Host.reduce_andi_all _ _ _ _ _ h0 i
  rw [cmpf_apply, broadcastInDim_scalar_apply, constant_apply, inf_word] at hi
  refine real_of_abs_lt_top (X i) ?_
  have hc : BitVec.ofBool (decide (max (X i) (-(X i)) < ⊤)) = 1#1 := hi
  cases hd : decide (max (X i) (-(X i)) < ⊤) with
  | false => rw [hd] at hc; exact absurd hc (by decide)
  | true => exact of_decide_eq_true hd

end Cert.Finite

end
-- ==== Proof.lean ====
/-
  The certificate: a three-layer mean of graph propagations, computed two ways.

  With D the vector of normalisers (1 / sqrt of the in-degree, 0 at isolated nodes) and P one propagation step (gather the
  rows at the edges' sources, accumulate them at the edges' targets), the kernel computes L1 = D . P (D . X) and
  L2 = D . P (D . L1) in three row-blocked kernels with the gathers and accumulations on the host between them, and
  returns (X + L1 + L2) times a folded reciprocal of 3; the reference weights each message by the product of the two
  normalisers of its edge and returns (X + L1 + L2) / 3. The frames of both printed kernels are generated; the reference's
  frame is its run with the result dropped. The named reciprocal is 1/3 by the certificate's table. The two results agree
  at the ideal instance because a target row's normaliser is constant over the messages that land on it and comes out of
  the sum, which needs the data to be finite: the input is, under the precondition, and the normalisers always are.
-/
import proofs.«114014_j68410239091163_1_alg».proof.Defs
import proofs.«114014_j68410239091163_1_alg».proof.Proof.Gen.Kernel
import proofs.«114014_j68410239091163_1_alg».proof.Proof.Gen.Kernel.Skeleton
import proofs.«114014_j68410239091163_1_alg».proof.Proof.Gen.Kernel.Launch
import proofs.«114014_j68410239091163_1_alg».proof.Proof.Gen.Kernel.Points
import proofs.«114014_j68410239091163_1_alg».proof.Proof.Gen.Kernel.Frame
import proofs.«114014_j68410239091163_1_alg».proof.Proof.Gen.KernelIdeal
import proofs.«114014_j68410239091163_1_alg».proof.Proof.Gen.KernelIdeal.Skeleton
import proofs.«114014_j68410239091163_1_alg».proof.Proof.Gen.KernelIdeal.Launch
import proofs.«114014_j68410239091163_1_alg».proof.Proof.Gen.KernelIdeal.Points
import proofs.«114014_j68410239091163_1_alg».proof.Proof.Gen.KernelIdeal.Frame
import proofs.«114014_j68410239091163_1_alg».proof.Proof.Gen.ReferenceIdeal
import proofs.«114014_j68410239091163_1_alg».proof.Proof.Gen.Pre_finite_inputs
import proofs.«114014_j68410239091163_1_alg».proof.Proof.RefRunPatched
import proofs.«114014_j68410239091163_1_alg».proof.Proof.RSpec
import proofs.«114014_j68410239091163_1_alg».proof.Proof.KRun
import proofs.«114014_j68410239091163_1_alg».proof.Proof.KHost
import proofs.«114014_j68410239091163_1_alg».proof.Proof.Bridge
import proofs.«114014_j68410239091163_1_alg».proof.Proof.XReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the certificate's table gives the folded reciprocal the value 1/3. -/
theorem preserves : Cert.preserves_Kernel_KernelIdeal :=
  IdealRules.named_const.statement Cert.KernelIdeal.κ "inv_3" .f32 0x3EAAAAAB#32 ((1 / 3 : ℝ) : EReal) rfl

/-- Both runs end at the kernel's function of the argument arrays: the kernel's by reading its three regions and the
    host operations between them, the reference's because its result term is that function for a finite input. -/
theorem algebraic : Cert.algebraic_KernelIdeal_ReferenceIdeal := by
  intro m ρ m' ρ' hpre hagree
  refine ⟨fun c => Cert.KernelIdeal.KV.kernelOut (Cert.KernelIdeal.KV.E0 m c) (Cert.KernelIdeal.KV.X0 m c), ?_, ?_⟩
  · exact (θ_run Cert.KernelIdeal.defs _ _).mono
      (fun r h c => ⟨(h c).1.trans (Cert.KernelIdeal.KV.result_value m ρ c), (h c).2⟩)
      (Cert.KernelIdeal.KV.run_result m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RV.res_eq, (hagree c).1, (hagree c).2]
    exact (Cert.Bridge.out_eq _ _ (Cert.Finite.real_of_pre _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
